-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S65536x1024 .f32) (main_arg1 : FVec F S1024x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S65536x1024 : Shape := ⟨2, ![65536, 1024]⟩
abbrev S1024x1024 : Shape := ⟨2, ![1024, 1024]⟩
abbrev S_ : Shape := ⟨0, ![]⟩
abbrev S1024 : Shape := ⟨1, ![1024]⟩
abbrev S1 : Shape := ⟨1, ![1]⟩
abbrev S1024x1 : Shape := ⟨2, ![1024, 1]⟩

abbrev nBuf : Space → Nat
  | .hbm => 21
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .i1⟩
  | .hbm, ⟨9, _⟩ => ⟨S_, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S_, .i32⟩
  | .hbm, ⟨15, _⟩ => ⟨S1, .i32⟩
  | .hbm, ⟨16, _⟩ => ⟨S1024, .f32⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_cst_1 : Ref sig .tc := ⟨.hbm, 10, rfl⟩
abbrev main_call1_v0 : Ref sig .tc := ⟨.hbm, 11, rfl⟩
abbrev main_call1_v1 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S1024x1024_S1024_d1 : S1024x1024.ReducesTo [1] S1024
  h_S_ : 0 < S_.numel
  bcast_S_S1024 : S_.BroadcastsInDim S1024 (![] : Fin 0 → Fin S1024.rank)
  bcast_S_S1 : S_.BroadcastsInDim S1 (![] : Fin 0 → Fin S1.rank)
  transposes_S1024x1024_S1024x1024_1_0 : S1024x1024.Transposes [1, 0] S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1024x1024 : S1024x1024.ShapeCasts S1024x1024
  scatter_S1024x1024_S1_S1024_0_1_1_0_wf : ScatterDims.WF S1024x1024 S1 S1024 [0] [1] [1] 0
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S65536x1024.size a
  hwx0_2 : ∀ i : grid0.Coords, EltTy.bits .f32 = 32 ∨ (Rect.block (s := S65536x1024) S1024x1024.size (cc0_transform_2 i) (hinb0_2 i)).WholeWords (EltTy.packing .f32)

variable [Facts₀]

def scatter_S1024x1024_S1_S1024_0_1_1_0 : ScatterDims S1024x1024 S1 S1024 where
  updateWindowDims := [0]
  insertedWindowDims := [1]
  scatterDimsToOperandDims := [1]
  indexVectorDim := 0
  wf := scatter_S1024x1024_S1_S1024_0_1_1_0_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S_ : Shape := ⟨0, ![]⟩
abbrev S1024 : Shape := ⟨1, ![1024]⟩
abbrev S1 : Shape := ⟨1, ![1]⟩
abbrev S65536 : Shape := ⟨1, ![65536]⟩
abbrev S65536x1 : Shape := ⟨2, ![65536, 1]⟩

abbrev nBuf : Space → Nat
  | .hbm => 140
  | .vmem => 0
  | .smem => 0
  | _ => 0

abbrev hbmTy0_0 (i : Nat) : BufTy := match i % 128 with
  | 0 => ⟨S65536x1024, .f32⟩
  | 1 => ⟨S1024x1024, .f32⟩
  | 2 => ⟨S1024x1024, .f32⟩
  | 3 => ⟨S_, .f32⟩
  | 4 => ⟨S1024, .f32⟩
  | 5 => ⟨S1024, .f32⟩
  | 6 => ⟨S_, .f32⟩
  | 7 => ⟨S1024, .f32⟩
  | 8 => ⟨S1024, .i1⟩
  | 9 => ⟨S_, .f32⟩
  | 10 => ⟨S_, .f32⟩
  | 11 => ⟨S1024, .f32⟩
  | 12 => ⟨S1024, .f32⟩
  | 13 => ⟨S1024, .f32⟩
  | 14 => ⟨S_, .i32⟩
  | 15 => ⟨S1, .i32⟩
  | 16 => ⟨S1024, .f32⟩
  | 17 => ⟨S1024x1024, .f32⟩
  | 18 => ⟨S_, .f32⟩
  | 19 => ⟨S65536x1024, .i1⟩
  | 20 => ⟨S_, .f32⟩
  | 21 => ⟨S65536x1024, .f32⟩
  | 22 => ⟨S65536x1024, .f32⟩
  | 23 => ⟨S_, .f32⟩
  | 24 => ⟨S65536x1024, .f32⟩
  | 25 => ⟨S65536x1024, .i1⟩
  | 26 => ⟨S_, .f32⟩
  | 27 => ⟨S65536x1024, .f32⟩
  | 28 => ⟨S65536x1024, .f32⟩
  | 29 => ⟨S_, .f32⟩
  | 30 => ⟨S65536x1024, .f32⟩
  | 31 => ⟨S65536x1024, .i1⟩
  | 32 => ⟨S_, .f32⟩
  | 33 => ⟨S65536x1024, .f32⟩
  | 34 => ⟨S65536x1024, .f32⟩
  | 35 => ⟨S65536x1024, .f32⟩
  | 36 => ⟨S_, .f32⟩
  | 37 => ⟨S65536, .f32⟩
  | 38 => ⟨S65536x1, .f32⟩
  | 39 => ⟨S65536x1, .f32⟩
  | 40 => ⟨S_, .f32⟩
  | 41 => ⟨S65536x1, .f32⟩
  | 42 => ⟨S65536x1, .f32⟩
  | 43 => ⟨S_, .f32⟩
  | 44 => ⟨S65536x1, .f32⟩
  | 45 => ⟨S65536x1, .f32⟩
  | 46 => ⟨S_, .f32⟩
  | 47 => ⟨S_, .f32⟩
  | 48 => ⟨S_, .f32⟩
  | 49 => ⟨S65536x1, .f32⟩
  | 50 => ⟨S65536x1, .f32⟩
  | 51 => ⟨S_, .f32⟩
  | 52 => ⟨S65536x1, .f32⟩
  | 53 => ⟨S65536x1, .f32⟩
  | 54 => ⟨S_, .f32⟩
  | 55 => ⟨S_, .f32⟩
  | 56 => ⟨S_, .f32⟩
  | 57 => ⟨S65536x1, .f32⟩
  | 58 => ⟨S65536x1, .f32⟩
  | 59 => ⟨S_, .f32⟩
  | 60 => ⟨S65536x1, .f32⟩
  | 61 => ⟨S65536x1, .f32⟩
  | 62 => ⟨S65536x1, .f32⟩
  | 63 => ⟨S65536x1, .f32⟩
  | 64 => ⟨S65536x1, .f32⟩
  | 65 => ⟨S65536x1, .f32⟩
  | 66 => ⟨S_, .f32⟩
  | 67 => ⟨S65536x1, .f32⟩
  | 68 => ⟨S65536x1, .f32⟩
  | 69 => ⟨S_, .f32⟩
  | 70 => ⟨S65536x1, .f32⟩
  | 71 => ⟨S65536x1, .f32⟩
  | 72 => ⟨S65536x1, .f32⟩
  | 73 => ⟨S65536x1024, .f32⟩
  | 74 => ⟨S65536x1024, .f32⟩
  | 75 => ⟨S_, .f32⟩
  | 76 => ⟨S_, .f32⟩
  | 77 => ⟨S_, .f32⟩
  | 78 => ⟨S65536x1024, .f32⟩
  | 79 => ⟨S65536x1024, .f32⟩
  | 80 => ⟨S_, .f32⟩
  | 81 => ⟨S65536x1024, .f32⟩
  | 82 => ⟨S65536x1024, .f32⟩
  | 83 => ⟨S1024x1024, .f32⟩
  | 84 => ⟨S65536x1024, .f32⟩
  | 85 => ⟨S_, .f32⟩
  | 86 => ⟨S_, .f32⟩
  | 87 => ⟨S_, .f32⟩
  | 88 => ⟨S65536x1024, .f32⟩
  | 89 => ⟨S65536x1024, .f32⟩
  | 90 => ⟨S_, .f32⟩
  | 91 => ⟨S65536x1024, .f32⟩
  | 92 => ⟨S65536x1024, .f32⟩
  | 93 => ⟨S65536x1024, .f32⟩
  | 94 => ⟨S_, .f32⟩
  | 95 => ⟨S65536, .f32⟩
  | 96 => ⟨S65536x1, .f32⟩
  | 97 => ⟨S65536x1, .f32⟩
  | 98 => ⟨S_, .f32⟩
  | 99 => ⟨S65536x1, .f32⟩
  | 100 => ⟨S65536x1, .f32⟩
  | 101 => ⟨S_, .f32⟩
  | 102 => ⟨S65536x1, .f32⟩
  | 103 => ⟨S65536x1, .f32⟩
  | 104 => ⟨S65536x1, .f32⟩
  | 105 => ⟨S65536x1024, .f32⟩
  | 106 => ⟨S65536x1024, .f32⟩
  | 107 => ⟨S_, .f32⟩
  | 108 => ⟨S65536x1, .f32⟩
  | 109 => ⟨S65536x1, .f32⟩
  | 110 => ⟨S65536x1024, .f32⟩
  | 111 => ⟨S65536x1024, .f32⟩
  | 112 => ⟨S65536x1024, .f32⟩
  | 113 => ⟨S_, .f32⟩
  | 114 => ⟨S65536, .f32⟩
  | 115 => ⟨S65536x1, .f32⟩
  | 116 => ⟨S65536x1, .f32⟩
  | 117 => ⟨S65536x1, .i1⟩
  | 118 => ⟨S65536x1, .f32⟩
  | 119 => ⟨S_, .f32⟩
  | 120 => ⟨S65536x1, .f32⟩
  | 121 => ⟨S65536x1, .i1⟩
  | 122 => ⟨S65536x1, .i1⟩
  | 123 => ⟨S_, .f32⟩
  | 124 => ⟨S_, .f32⟩
  | 125 => ⟨S65536x1, .f32⟩
  | 126 => ⟨S65536x1, .f32⟩
  | 127 => ⟨S_, .f32⟩
  | _ => ⟨S65536x1024, .f32⟩

abbrev hbmTy0_1 (i : Nat) : BufTy := match i % 128 with
  | 0 => ⟨S65536x1, .f32⟩
  | 1 => ⟨S65536x1, .f32⟩
  | 2 => ⟨S_, .f32⟩
  | 3 => ⟨S65536x1, .f32⟩
  | 4 => ⟨S65536x1, .i1⟩
  | 5 => ⟨S_, .f32⟩
  | 6 => ⟨S65536x1, .f32⟩
  | 7 => ⟨S65536x1, .f32⟩
  | 8 => ⟨S65536x1024, .f32⟩
  | 9 => ⟨S65536x1024, .f32⟩
  | 10 => ⟨S65536x1024, .i1⟩
  | 11 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_cst_1 : Ref sig .tc := ⟨.hbm, 10, rfl⟩
abbrev main_call1_v0 : Ref sig .tc := ⟨.hbm, 11, rfl⟩
abbrev main_call1_v1 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call2_v0 : Ref sig .tc := ⟨.hbm, 19, rfl⟩
abbrev main_call2_v1 : Ref sig .tc := ⟨.hbm, 20, rfl⟩
abbrev main_call2_call0_v0 : Ref sig .tc := ⟨.hbm, 21, rfl⟩
abbrev main_call2_v2 : Ref sig .tc := ⟨.hbm, 22, rfl⟩
abbrev main_call2_cst : Ref sig .tc := ⟨.hbm, 23, rfl⟩
abbrev main_call2_v3 : Ref sig .tc := ⟨.hbm, 24, rfl⟩
abbrev main_call2_v4 : Ref sig .tc := ⟨.hbm, 25, rfl⟩
abbrev main_call2_cst_0 : Ref sig .tc := ⟨.hbm, 26, rfl⟩
abbrev main_call2_call1_v0 : Ref sig .tc := ⟨.hbm, 27, rfl⟩
abbrev main_call2_v5 : Ref sig .tc := ⟨.hbm, 28, rfl⟩
abbrev main_call2_cst_1 : Ref sig .tc := ⟨.hbm, 29, rfl⟩
abbrev main_call2_v6 : Ref sig .tc := ⟨.hbm, 30, rfl⟩
abbrev main_call2_v7 : Ref sig .tc := ⟨.hbm, 31, rfl⟩
abbrev main_call2_cst_2 : Ref sig .tc := ⟨.hbm, 32, rfl⟩
abbrev main_call2_call2_v0 : Ref sig .tc := ⟨.hbm, 33, rfl⟩
abbrev main_v7 : Ref sig .tc := ⟨.hbm, 34, rfl⟩
abbrev main_call3_v0 : Ref sig .tc := ⟨.hbm, 35, rfl⟩
abbrev main_call3_cst : Ref sig .tc := ⟨.hbm, 36, rfl⟩
abbrev main_call3_v1 : Ref sig .tc := ⟨.hbm, 37, rfl⟩
abbrev main_call3_v2 : Ref sig .tc := ⟨.hbm, 38, rfl⟩
abbrev main_v8 : Ref sig .tc := ⟨.hbm, 39, rfl⟩
abbrev main_cst_3 : Ref sig .tc := ⟨.hbm, 40, rfl⟩
abbrev main_v9 : Ref sig .tc := ⟨.hbm, 41, rfl⟩
abbrev main_v10 : Ref sig .tc := ⟨.hbm, 42, rfl⟩
abbrev main_cst_4 : Ref sig .tc := ⟨.hbm, 43, rfl⟩
abbrev main_v11 : Ref sig .tc := ⟨.hbm, 44, rfl⟩
abbrev main_v12 : Ref sig .tc := ⟨.hbm, 45, rfl⟩
abbrev main_cst_5 : Ref sig .tc := ⟨.hbm, 46, rfl⟩
abbrev main_cst_6 : Ref sig .tc := ⟨.hbm, 47, rfl⟩
abbrev main_call4_v0 : Ref sig .tc := ⟨.hbm, 48, rfl⟩
abbrev main_call4_v1 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_v13 : Ref sig .tc := ⟨.hbm, 53, rfl⟩
abbrev main_cst_7 : Ref sig .tc := ⟨.hbm, 54, rfl⟩
abbrev main_cst_8 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_call5_v3 : Ref sig .tc := ⟨.hbm, 59, rfl⟩
abbrev main_call5_v4 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_9 : Ref sig .tc := ⟨.hbm, 66, rfl⟩
abbrev main_v19 : Ref sig .tc := ⟨.hbm, 67, rfl⟩
abbrev main_v20 : Ref sig .tc := ⟨.hbm, 68, rfl⟩
abbrev main_cst_10 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_cst_11 : Ref sig .tc := ⟨.hbm, 75, rfl⟩
abbrev main_cst_12 : Ref sig .tc := ⟨.hbm, 76, rfl⟩
abbrev main_call6_v0 : Ref sig .tc := ⟨.hbm, 77, rfl⟩
abbrev main_call6_v1 : Ref sig .tc := ⟨.hbm, 78, rfl⟩
abbrev main_call6_v2 : Ref sig .tc := ⟨.hbm, 79, rfl⟩
abbrev main_call6_v3 : Ref sig .tc := ⟨.hbm, 80, rfl⟩
abbrev main_call6_v4 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_cst_13 : Ref sig .tc := ⟨.hbm, 85, rfl⟩
abbrev main_cst_14 : Ref sig .tc := ⟨.hbm, 86, rfl⟩
abbrev main_call7_v0 : Ref sig .tc := ⟨.hbm, 87, rfl⟩
abbrev main_call7_v1 : Ref sig .tc := ⟨.hbm, 88, rfl⟩
abbrev main_call7_v2 : Ref sig .tc := ⟨.hbm, 89, rfl⟩
abbrev main_call7_v3 : Ref sig .tc := ⟨.hbm, 90, rfl⟩
abbrev main_call7_v4 : Ref sig .tc := ⟨.hbm, 91, rfl⟩
abbrev main_v29 : Ref sig .tc := ⟨.hbm, 92, rfl⟩
abbrev main_call8_v0 : Ref sig .tc := ⟨.hbm, 93, rfl⟩
abbrev main_call8_cst : Ref sig .tc := ⟨.hbm, 94, rfl⟩
abbrev main_call8_v1 : Ref sig .tc := ⟨.hbm, 95, rfl⟩
abbrev main_call8_v2 : Ref sig .tc := ⟨.hbm, 96, rfl⟩
abbrev main_v30 : Ref sig .tc := ⟨.hbm, 97, rfl⟩
abbrev main_cst_15 : Ref sig .tc := ⟨.hbm, 98, rfl⟩
abbrev main_v31 : Ref sig .tc := ⟨.hbm, 99, rfl⟩
abbrev main_v32 : Ref sig .tc := ⟨.hbm, 100, rfl⟩
abbrev main_cst_16 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_cst_17 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_call9_v0 : Ref sig .tc := ⟨.hbm, 112, rfl⟩
abbrev main_call9_cst : Ref sig .tc := ⟨.hbm, 113, rfl⟩
abbrev main_call9_v1 : Ref sig .tc := ⟨.hbm, 114, rfl⟩
abbrev main_call9_v2 : Ref sig .tc := ⟨.hbm, 115, rfl⟩
abbrev main_v42 : Ref sig .tc := ⟨.hbm, 116, rfl⟩
abbrev main_v43 : Ref sig .tc := ⟨.hbm, 117, rfl⟩
abbrev main_call10_v0 : Ref sig .tc := ⟨.hbm, 118, rfl⟩
abbrev main_call10_cst : Ref sig .tc := ⟨.hbm, 119, rfl⟩
abbrev main_call10_v1 : Ref sig .tc := ⟨.hbm, 120, rfl⟩
abbrev main_v44 : Ref sig .tc := ⟨.hbm, 121, rfl⟩
abbrev main_v45 : Ref sig .tc := ⟨.hbm, 122, rfl⟩
abbrev main_cst_18 : Ref sig .tc := ⟨.hbm, 123, rfl⟩
abbrev main_call11_v0 : Ref sig .tc := ⟨.hbm, 124, rfl⟩
abbrev main_call11_v1 : Ref sig .tc := ⟨.hbm, 125, rfl⟩
abbrev main_v46 : Ref sig .tc := ⟨.hbm, 126, rfl⟩
abbrev main_cst_19 : Ref sig .tc := ⟨.hbm, 127, rfl⟩
abbrev main_v47 : Ref sig .tc := ⟨.hbm, 128, rfl⟩
abbrev main_v48 : Ref sig .tc := ⟨.hbm, 129, rfl⟩
abbrev main_cst_20 : Ref sig .tc := ⟨.hbm, 130, rfl⟩
abbrev main_v49 : Ref sig .tc := ⟨.hbm, 131, rfl⟩
abbrev main_v50 : Ref sig .tc := ⟨.hbm, 132, rfl⟩
abbrev main_cst_21 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_call12_v0 : Ref sig .tc := ⟨.hbm, 138, rfl⟩
abbrev main_v55 : Ref sig .tc := ⟨.hbm, 139, rfl⟩

abbrev nD : Nat := 1
abbrev τ : Topo := Topo.v7x

variable {F : FTy → Type} [FloatOps F]

class Facts₀ : Prop where
  reducesTo_S1024x1024_S1024_d1 : S1024x1024.ReducesTo [1] S1024
  h_S_ : 0 < S_.numel
  bcast_S_S1024 : S_.BroadcastsInDim S1024 (![] : Fin 0 → Fin S1024.rank)
  bcast_S_S1 : S_.BroadcastsInDim S1 (![] : Fin 0 → Fin S1.rank)
  bcast_S_S65536x1024 : S_.BroadcastsInDim S65536x1024 (![] : Fin 0 → Fin S65536x1024.rank)
  reducesTo_S65536x1024_S65536_d1 : S65536x1024.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)
  transposes_S1024x1024_S1024x1024_1_0 : S1024x1024.Transposes [1, 0] S1024x1024
  scatter_S1024x1024_S1_S1024_0_1_1_0_wf : ScatterDims.WF S1024x1024 S1 S1024 [0] [1] [1] 0
  dot_S65536x1024_S1024x1024_S65536x1024_1_0_0_1_n_n_wf : DotDims.WF S65536x1024 S1024x1024 S65536x1024 [1] [0] [0] [1] [] []

variable [Facts₀]

def scatter_S1024x1024_S1_S1024_0_1_1_0 : ScatterDims S1024x1024 S1 S1024 where
  updateWindowDims := [0]
  insertedWindowDims := [1]
  scatterDimsToOperandDims := [1]
  indexVectorDim := 0
  wf := scatter_S1024x1024_S1_S1024_0_1_1_0_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf

class Facts : Prop extends Facts₀ where

variable [Facts]
-- ==== Proof.Spec.lean ====
/-
  The row functions of the Möbius matrix–vector map with curvature one, on the extended reals.

  Every entry of the result depends on ONE row `r` of the argument `x` and on the whole weight matrix `W`
  (already stabilised and transposed): the row is cleaned of infinities, mapped to the tangent space at the origin
  (`xtan`: scaled by `artanh(|r|)/|r|` with the norm bounded below and the argument of `artanh` clipped), multiplied by
  `W`, clipped to `[-1000, 1000]` (`mxr`), and sent back by the exponential map followed by the projection onto the ball.
  The two programs differ only in that last step: the reference computes `y = (t · v) / u` with `u = max |v| ε`,
  `t = tanh u`, then the norm of `y` and rescales `y` when that norm exceeds one (`tailR`); the kernel uses `t` in place of
  the norm of `y` and folds both factors into one per-row scalar (`tailK`). For real `v` both are `v · t / u`: the norm of
  `y` is at most `t`, and `t = tanh u < 1`, so neither rescaling happens (`Math.lean`).
  Literals are kept as the 32-bit words the programs print; `c w` is the extended real the word denotes.
-/
import Idealize.ShloMosaic.PureOps.Ideal
import Idealize.ShloMosaic.PureOps.Ideal.Laws

noncomputable section

namespace Cert.Mobius

open Idealize.ShloMosaic

/-- The extended real an f32 word denotes. -/
abbrev c (w : BitVec 32) : EReal := Ideal.ofBits .f32 w

/-- Number of columns. -/
abbrev n : Nat := 1024

/-! ## The last step: exponential map and projection, on one row `v` of the clipped product -/

/-- `u = max (sqrt (Σ v²)) ε`, the row's norm bounded below. -/
def unorm (v : Fin n → EReal) : EReal := max (Ideal.sqrt (∑ k, v k * v k)) (c 0x26901D7D#32)

/-- `t = tanh (1 · u)`. -/
def tnorm (v : Fin n → EReal) : EReal := Ideal.tanh (c 0x3F800000#32 * unorm v)

/-- The kernel's last step: `v q · ((t / (1 · u)) · (if t > 1 then 1 / max t 1e-9 else 1))`. -/
def tailK (v : Fin n → EReal) (q : Fin n) : EReal :=
  v q * (Ideal.div (tnorm v) (c 0x3F800000#32 * unorm v)
    * Scalar.select (Ideal.cmp .ogt (tnorm v) (c 0x3F800000#32))
        (Ideal.div (c 0x3F800000#32) (max (tnorm v) (c 0x3089705F#32))) (c 0x3F800000#32))

/-- The reference's point on the ball before projection: `y q = (t · v q) / (1 · u)`. -/
def yrow (v : Fin n → EReal) (q : Fin n) : EReal := Ideal.div (tnorm v * v q) (c 0x3F800000#32 * unorm v)

/-- The norm of `y`, as the reference computes it. -/
def ynorm (v : Fin n → EReal) : EReal := Ideal.sqrt (∑ k, yrow v k * yrow v k)

/-- The norm with an infinite (or unordered) value replaced by zero. -/
def ynorm' (v : Fin n → EReal) : EReal :=
  Scalar.select (Ideal.cmp .une (ynorm v) (ynorm v) ||| Ideal.cmp .oeq (max (ynorm v) (-(ynorm v))) (c 0x7F800000#32))
    (c 0x00000000#32) (ynorm v)

/-- The reference's last step: `y q` rescaled by `1 / max |y| 1e-9` when `|y| > 1`. -/
def tailR (v : Fin n → EReal) (q : Fin n) : EReal :=
  Scalar.select (Ideal.cmp .ogt (ynorm' v) (c 0x3F800000#32))
    (yrow v q * Ideal.div (c 0x3F800000#32) (max (ynorm' v) (c 0x3089705F#32))) (yrow v q)

/-! ## The shared first steps, on one row `r` of `x` -/

/-- An entry with `+∞` replaced by the largest finite f32 and `-∞` by the smallest (and the unordered case by zero). -/
def clean (a : EReal) : EReal :=
  let a1 := Scalar.select (Ideal.cmp .one a a) (c 0x00000000#32) a
  let a2 := Scalar.select (Ideal.cmp .oeq a1 (c 0x7F800000#32)) (c 0x7F7FFFFF#32) a1
  Scalar.select (Ideal.cmp .oeq a2 (c 0xFF800000#32)) (c 0xFF7FFFFF#32) a2

/-- The cleaned row's norm bounded below: `max (sqrt (Σ clean(r)²)) ε`. -/
def pnorm (r : Fin n → EReal) : EReal :=
  max (Ideal.sqrt (∑ k, clean (r k) * clean (r k))) (c 0x26901D7D#32)

/-- `artanh` of the norm, clipped twice, as `½ (log1p z − log1p (0 − z))`, then `1 · ½ · (…)` over the norm. -/
def scale (r : Fin n → EReal) : EReal :=
  let z := min (c 0x3F7D70A2#32) (max (c 0xBF7D70A2#32) (min (c 0x3F7D70A4#32) (max (c 0xBF7D70A4#32) (c 0x3F800000#32 * pnorm r))))
  Ideal.div (c 0x3F800000#32 * (c 0x3F000000#32 * (Ideal.log1p z - Ideal.log1p (c 0x00000000#32 - z)))) (pnorm r)

/-- The tangent vector: `scale · clean(r k)` clipped to `[-50, 50]`. -/
def xtan (r : Fin n → EReal) (k : Fin n) : EReal :=
  min (c 0x42480000#32) (max (c 0xC2480000#32) (scale r * clean (r k)))

/-- The product with the weights, clipped to `[-1000, 1000]`: `W k q` is the weight from coordinate `k` to `q`. -/
def mxr (W : Fin n → Fin n → EReal) (r : Fin n → EReal) (q : Fin n) : EReal :=
  min (c 0x447A0000#32) (max (c 0xC47A0000#32) (∑ k, xtan r k * W k q))

/-- The kernel's row function and the reference's. -/
def rowK (W : Fin n → Fin n → EReal) (r : Fin n → EReal) (q : Fin n) : EReal := tailK (mxr W r) q
def rowR (W : Fin n → Fin n → EReal) (r : Fin n → EReal) (q : Fin n) : EReal := tailR (mxr W r) q

end Cert.Mobius

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.KernelPayload.lean ====
/-
  The kernel body's arithmetic read at an entry. The body loads a block `x0` of 1024 rows of `x` and the whole weight
  matrix `w`, and stores one block of the result. Entry (p, q) of that block is the row function `rowK` of the
  specification at row p of `x0`: every operation of the body is either entry-wise, or a row sum kept as a column
  [1024, 1], or a column spread back over the row, or the matrix product; so the entry depends on row p of `x0` and
  on `w` only. The stages below name the body's intermediate values (the cleaned block, the norm column, the scale
  column, the clipped product, the per-row factor), in the body's own operations, and read each at an entry.
-/
import proofs.«108034_j15393162789091_2_alg».proof.Proof.Gen.KernelIdeal.Skeleton
import proofs.«108034_j15393162789091_2_alg».proof.Proof.Spec
import proofs.«108034_j15393162789091_2_alg».proof.Proof.LibKeepdims
import proofs.«108034_j15393162789091_2_alg».proof.Proof.LibMatmulPlain
import Idealize.ShloMosaic.Lib.ValueIdx
import Idealize.ShloMosaic.Lib.Pipeline.Value

noncomputable section

namespace Cert.KernelIdeal.Payload

open Cert.KernelIdeal Cert.KernelIdeal.Gen Cert.Mobius Idealize.ShloMosaic Idealize.ShloMosaic.ValueIdx

/-- Row `p` of a block. -/
abbrev rowOf (x0 : FVec Ideal S1024x1024 .f32) (p : Fin 1024) : Fin n → EReal := fun k => x0 (ix2 p k)

/-! ## The tangent vector -/

/-- The block with infinities replaced, entry by entry. -/
def cleanV (v0 : FVec Ideal S1024x1024 .f32) : FVec Ideal S1024x1024 .f32 :=
  have cst : Ideal .f32 := Scalar.ofBits .f32 0x00000000#32
  have v1 : IVec S1024x1024 1 := cmpf .one v0 v0
  have v2 : FVec Ideal S1024x1024 .f32 := broadcast S1024x1024 cst
  have v3 : FVec Ideal S1024x1024 .f32 := select v1 v2 v0
  have cst_1 : Ideal .f32 := Scalar.ofBits .f32 0x7F800000#32
  have v4 : FVec Ideal S1024x1024 .f32 := broadcast S1024x1024 cst_1
  have v5 : IVec S1024x1024 1 := cmpf .oeq v3 v4
  have cst_2 : Ideal .f32 := Scalar.ofBits .f32 0x7F7FFFFF#32
  have v6 : FVec Ideal S1024x1024 .f32 := broadcast S1024x1024 cst_2
  have v7 : FVec Ideal S1024x1024 .f32 := select v5 v6 v3
  have cst_3 : Ideal .f32 := Scalar.ofBits .f32 0xFF800000#32
  have v8 : FVec Ideal S1024x1024 .f32 := broadcast S1024x1024 cst_3
  have v9 : IVec S1024x1024 1 := cmpf .oeq v7 v8
  have cst_4 : Ideal .f32 := Scalar.ofBits .f32 0xFF7FFFFF#32
  have v10 : FVec Ideal S1024x1024 .f32 := broadcast S1024x1024 cst_4
  have v11 : FVec Ideal S1024x1024 .f32 := select v9 v10 v7
  v11

theorem cleanV_at (v0 : FVec Ideal S1024x1024 .f32) (i : S1024x1024.Idx) : cleanV v0 i = clean (v0 i) := rfl

/-- The column of row norms bounded below. -/
def pnormV (v11 : FVec Ideal S1024x1024 .f32) : FVec Ideal S1024x1 .f32 :=
  have v12 : FVec Ideal S1024x1024 .f32 := mulf v11 v11
  have v13 : FVec Ideal S1024 .f32 := multiReduction .add [1] S1024 v12 0x00000000#32 reduces_S1024x1024_S1024 (.inl rfl) rfl
  have v14 : FVec Ideal S1024x1 .f32 := shapeCast S1024x1 v13 shapeCasts_S1024_S1024x1
  have v15 : FVec Ideal S1024x1 .f32 := sqrt v14
  have cst_6 : Ideal .f32 := Scalar.ofBits .f32 0x26901D7D#32
  have v16 : FVec Ideal S1024x1 .f32 := broadcast S1024x1 cst_6
  have v17 : FVec Ideal S1024x1 .f32 := maximumf v15 v16
  v17

theorem pnormV_at (v11 : FVec Ideal S1024x1024 .f32) (p : Fin 1024) :
    pnormV v11 (ix2 p 0) = max (Ideal.sqrt (∑ k : Fin 1024, v11 (ix2 p k) * v11 (ix2 p k))) (c 0x26901D7D#32) := by
  show max (Ideal.sqrt (shapeCast S1024x1 (multiReduction .add [1] S1024 (mulf v11 v11) 0x00000000#32
    reduces_S1024x1024_S1024 (.inl rfl) rfl) shapeCasts_S1024_S1024x1 (ix2 p 0))) (c 0x26901D7D#32) = _
  rw [Cert.LibKeepdims.shapeCast_a_a1_apply, Cert.LibKeepdims.rowSum_apply]
  rfl

/-- The column of scales `artanh(|r|) / |r|`, from the norm column. -/
def scaleV (v17 : FVec Ideal S1024x1 .f32) : FVec Ideal S1024x1 .f32 :=
  have cst_7 : Ideal .f32 := Scalar.ofBits .f32 0x3F800000#32
  have v18 : FVec Ideal S1024x1 .f32 := broadcast S1024x1 cst_7
  have v19 : FVec Ideal S1024x1 .f32 := mulf v18 v17
  have cst_8 : Ideal .f32 := Scalar.ofBits .f32 0xBF7D70A4#32
  have cst_9 : Ideal .f32 := Scalar.ofBits .f32 0x3F7D70A4#32
  have v20 : FVec Ideal S1024x1 .f32 := broadcast S1024x1 cst_8
  have v21 : FVec Ideal S1024x1 .f32 := maximumf v20 v19
  have v22 : FVec Ideal S1024x1 .f32 := broadcast S1024x1 cst_9
  have v23 : FVec Ideal S1024x1 .f32 := minimumf v22 v21
  have cst_10 : Ideal .f32 := Scalar.ofBits .f32 0xBF7D70A2#32
  have cst_11 : Ideal .f32 := Scalar.ofBits .f32 0x3F7D70A2#32
  have v24 : FVec Ideal S1024x1 .f32 := broadcast S1024x1 cst_10
  have v25 : FVec Ideal S1024x1 .f32 := maximumf v24 v23
  have v26 : FVec Ideal S1024x1 .f32 := broadcast S1024x1 cst_11
  have v27 : FVec Ideal S1024x1 .f32 := minimumf v26 v25
  have v28 : FVec Ideal S1024x1 .f32 := log1p v27
  have cst_12 : Ideal .f32 := Scalar.ofBits .f32 0x00000000#32
  have v29 : FVec Ideal S1024x1 .f32 := broadcast S1024x1 cst_12
  have v30 : FVec Ideal S1024x1 .f32 := subf v29 v27
  have v31 : FVec Ideal S1024x1 .f32 := log1p v30
  have v32 : FVec Ideal S1024x1 .f32 := subf v28 v31
  have cst_13 : Ideal .f32 := Scalar.ofBits .f32 0x3F000000#32
  have v33 : FVec Ideal S1024x1 .f32 := broadcast S1024x1 cst_13
  have v34 : FVec Ideal S1024x1 .f32 := mulf v33 v32
  have cst_14 : Ideal .f32 := Scalar.ofBits .f32 0x3F800000#32
  have v35 : FVec Ideal S1024x1 .f32 := broadcast S1024x1 cst_14
  have v36 : FVec Ideal S1024x1 .f32 := mulf v35 v34
  have v37 : FVec Ideal S1024x1 .f32 := divf v36 v17
  v37

theorem scaleV_at (v17 : FVec Ideal S1024x1 .f32) (i : S1024x1.Idx) : scaleV v17 i =
    (let z := min (c 0x3F7D70A2#32) (max (c 0xBF7D70A2#32) (min (c 0x3F7D70A4#32) (max (c 0xBF7D70A4#32) (c 0x3F800000#32 * v17 i))))
     Ideal.div (c 0x3F800000#32 * (c 0x3F000000#32 * (Ideal.log1p z - Ideal.log1p (c 0x00000000#32 - z)))) (v17 i)) := rfl

/-- The first payload is the scale column spread over the cleaned block. -/
theorem pay2_eq (x0 : FVec Ideal S1024x1024 .f32) :
    k0_pay2 (F := Ideal) x0
      = mulf (broadcastTo S1024x1024 (scaleV (pnormV (cleanV x0))) broadcasts_S1024x1_S1024x1024) (cleanV x0) := rfl

theorem pay2_at (x0 : FVec Ideal S1024x1024 .f32) (p k : Fin 1024) :
    k0_pay2 (F := Ideal) x0 (ix2 p k) = scale (rowOf x0 p) * clean (x0 (ix2 p k)) := by
  rw [pay2_eq]
  show broadcastTo S1024x1024 (scaleV (pnormV (cleanV x0))) broadcasts_S1024x1_S1024x1024 (ix2 p k) * cleanV x0 (ix2 p k) = _
  rw [Cert.LibKeepdims.broadcastTo_a1_ab_apply, scaleV_at, pnormV_at, cleanV_at]
  rfl

/-! ## The clipped product with the weights -/

/-- The tangent block clipped to [-50, 50], times the weights, clipped to [-1000, 1000]. -/
def mxV (v39 : FVec Ideal S1024x1024 .f32) (cst_15 : Ideal .f32) (cst_16 : Ideal .f32) (v45 : Vec Ideal S1024x1024 .bf16) :
    FVec Ideal S1024x1024 .f32 :=
  have v40 : FVec Ideal S1024x1024 .f32 := broadcast S1024x1024 cst_15
  have v41 : FVec Ideal S1024x1024 .f32 := maximumf v40 v39
  have v42 : FVec Ideal S1024x1024 .f32 := broadcast S1024x1024 cst_16
  have v43 : FVec Ideal S1024x1024 .f32 := minimumf v42 v41
  have v44 : FVec Ideal S1024x1024 .bf16 := truncf .bf16 v43 bitsLt_bf16_f32
  have v46 : FVec Ideal S1024x1024 .bf16 := shapeCast S1024x1024 v45 shapeCasts_S1024x1024_S1024x1024
  have cst_19 : FVec Ideal S1024x1024 .f32 := constant S1024x1024 .f32 0x00000000#32
  have v47 : FVec Ideal S1024x1024 .f32 := matmul dot_S1024x1024_S1024x1024_S1024x1024_1_0_0_1_n_n none v44 v46 cst_19
  have cst_20 : Ideal .f32 := Scalar.ofBits .f32 0xC47A0000#32
  have cst_21 : Ideal .f32 := Scalar.ofBits .f32 0x447A0000#32
  have v48 : FVec Ideal S1024x1024 .f32 := broadcast S1024x1024 cst_20
  have v49 : FVec Ideal S1024x1024 .f32 := maximumf v48 v47
  have v50 : FVec Ideal S1024x1024 .f32 := broadcast S1024x1024 cst_21
  have v51 : FVec Ideal S1024x1024 .f32 := minimumf v50 v49
  v51

theorem mxV_at (v39 : FVec Ideal S1024x1024 .f32) (v45 : FVec Ideal S1024x1024 .bf16) (p q : Fin 1024) :
    mxV v39 (Scalar.ofBits .f32 0xC2480000#32) (Scalar.ofBits .f32 0x42480000#32) v45 (ix2 p q)
      = min (c 0x447A0000#32) (max (c 0xC47A0000#32)
          (∑ k : Fin 1024, min (c 0x42480000#32) (max (c 0xC2480000#32) (v39 (ix2 p k))) * v45 (ix2 k q))) := by
  show min (c 0x447A0000#32) (max (c 0xC47A0000#32)
    (FloatOps.matmul dot_S1024x1024_S1024x1024_S1024x1024_1_0_0_1_n_n none
      (truncf .bf16 (minimumf (broadcast S1024x1024 (Scalar.ofBits .f32 0x42480000#32))
        (maximumf (broadcast S1024x1024 (Scalar.ofBits .f32 0xC2480000#32)) v39)) bitsLt_bf16_f32)
      (shapeCast S1024x1024 v45 shapeCasts_S1024x1024_S1024x1024)
      (constant S1024x1024 .f32 0x00000000#32) (ix2 p q))) = _
  rw [Cert.LibMatmulPlain.matmul_zero_apply dot_S1024x1024_S1024x1024_S1024x1024_1_0_0_1_n_n rfl rfl rfl rfl rfl rfl,
    shapeCast_self]
  rfl

/-! ## Back to the ball -/

/-- The per-row factor `(t / u) · (if t > 1 then 1 / max t 1e-9 else 1)` from the norm column `u`. -/
def factorV (v57 : FVec Ideal S1024x1 .f32) : FVec Ideal S1024x1 .f32 :=
  have cst_24 : Ideal .f32 := Scalar.ofBits .f32 0x3F800000#32
  have v58 : FVec Ideal S1024x1 .f32 := broadcast S1024x1 cst_24
  have v59 : FVec Ideal S1024x1 .f32 := mulf v58 v57
  have v60 : FVec Ideal S1024x1 .f32 := tanh v59
  have cst_25 : Ideal .f32 := Scalar.ofBits .f32 0x3F800000#32
  have v61 : FVec Ideal S1024x1 .f32 := broadcast S1024x1 cst_25
  have v62 : FVec Ideal S1024x1 .f32 := mulf v61 v57
  have v63 : FVec Ideal S1024x1 .f32 := divf v60 v62
  have cst_26 : Ideal .f32 := Scalar.ofBits .f32 0x3089705F#32
  have v64 : FVec Ideal S1024x1 .f32 := broadcast S1024x1 cst_26
  have v65 : FVec Ideal S1024x1 .f32 := maximumf v60 v64
  have cst_27 : Ideal .f32 := Scalar.ofBits .f32 0x3F800000#32
  have v66 : FVec Ideal S1024x1 .f32 := broadcast S1024x1 cst_27
  have v67 : IVec S1024x1 1 := cmpf .ogt v60 v66
  have cst_28 : Ideal .f32 := Scalar.ofBits .f32 0x3F800000#32
  have v68 : FVec Ideal S1024x1 .f32 := broadcast S1024x1 cst_28
  have v69 : FVec Ideal S1024x1 .f32 := divf v68 v65
  have cst_29 : Ideal .f32 := Scalar.ofBits .f32 0x3F800000#32
  have v70 : FVec Ideal S1024x1 .f32 := broadcast S1024x1 cst_29
  have v71 : FVec Ideal S1024x1 .f32 := select v67 v69 v70
  have v72 : FVec Ideal S1024x1 .f32 := mulf v63 v71
  v72

theorem factorV_at (v57 : FVec Ideal S1024x1 .f32) (i : S1024x1.Idx) : factorV v57 i =
    (let t := Ideal.tanh (c 0x3F800000#32 * v57 i)
     Ideal.div t (c 0x3F800000#32 * v57 i)
      * Scalar.select (Ideal.cmp .ogt t (c 0x3F800000#32)) (Ideal.div (c 0x3F800000#32) (max t (c 0x3089705F#32))) (c 0x3F800000#32)) := rfl

/-- The second payload: the clipped product times its per-row factor spread over the row. -/
theorem pay1_eq (v39 : FVec Ideal S1024x1024 .f32) (c15 c16 : Ideal .f32) (v45 : Vec Ideal S1024x1024 .bf16) :
    k0_pay1 (F := Ideal) v39 c15 c16 v45
      = mulf (mxV v39 c15 c16 v45) (broadcastTo S1024x1024 (factorV (pnormV (mxV v39 c15 c16 v45))) broadcasts_S1024x1_S1024x1024) := rfl

/-- ENTRY (p, q) OF THE STORED BLOCK is the kernel's row function of row `p` of the loaded block and the loaded
    weights. -/
theorem body_at (x0 : FVec Ideal S1024x1024 .f32) (x1 : FVec Ideal S1024x1024 .bf16) (p q : Fin 1024) :
    k0_pay1 (F := Ideal) (k0_pay2 x0) (Scalar.ofBits .f32 0xC2480000#32) (Scalar.ofBits .f32 0x42480000#32) x1 (ix2 p q)
      = rowK (fun k q' => x1 (ix2 k q')) (rowOf x0 p) q := by
  have hmx : ∀ q' : Fin 1024, mxV (k0_pay2 x0) (Scalar.ofBits .f32 0xC2480000#32) (Scalar.ofBits .f32 0x42480000#32) x1 (ix2 p q')
      = mxr (fun k q' => x1 (ix2 k q')) (rowOf x0 p) q' := fun q' => by
    rw [mxV_at]
    unfold mxr xtan
    simp only [pay2_at]
  rw [pay1_eq]
  show mxV (k0_pay2 x0) _ _ x1 (ix2 p q)
    * broadcastTo S1024x1024 (factorV (pnormV (mxV (k0_pay2 x0) _ _ x1))) broadcasts_S1024x1_S1024x1024 (ix2 p q) = _
  rw [Cert.LibKeepdims.broadcastTo_a1_ab_apply, factorV_at, pnormV_at]
  simp only [hmx]
  rfl

end Cert.KernelIdeal.Payload

end
-- ==== Proof.KernelArray.lean ====
/-
  From blocks to the array. The kernel runs over 64 grid points; point `t` loads rows 1024·t … 1024·t + 1023 of `x`
  (all 1024 columns) and the whole weight matrix, and writes back the same rows of the result. Entry (p, q) of the
  block point `t` writes is the row function `rowK` of row p of the loaded block (the payload read at an entry),
  and row p of that block is row 1024·t + p of `x`; the 64 blocks are disjoint and cover every row. So the result
  array ends as ONE function of the argument arrays: entry (i, q) is `rowK` of row i of `x` and the weights.
-/
import proofs.«108034_j15393162789091_2_alg».proof.Proof.Gen.KernelIdeal.Value
import proofs.«108034_j15393162789091_2_alg».proof.Proof.KernelPayload

noncomputable section

namespace Cert.KernelIdeal.Array

open Cert.KernelIdeal Cert.KernelIdeal.Gen Cert.KernelIdeal.Payload Cert.Mobius
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as one function of `x` and the weights `w` (laid out [k, q]): entry (i, q) is the kernel's row
    function of row `i` of `x`. -/
def G (x : S65536x1024.Idx → Elt Ideal .f32) (w : S1024x1024.Idx → Elt Ideal .bf16) : S65536x1024.Idx → Elt Ideal .f32 :=
  fun i => rowK (fun k q' => w (ix2 k q')) (fun k => x (ix2 (⟨(i 0).val, idx2_lt0 i⟩ : Fin 65536) k)) ⟨(i 1).val, idx2_lt1 i⟩

/-- The printed index maps over the grid: the block of `x` and the block of the result are the same block of rows,
    point `t` has block row `t`, every column block index is zero, and the weights' block never moves. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- Every block row is some point's. -/
theorem idx_onto : ∀ q0 : Fin 64, ∃ t : Fin cfg0.N, win0_2.index t = ![q0.val, 0] :=
  (by decide +kernel : ∀ q0 : Fin 64, ∃ t : Fin grid0.N, win0_2.index t = ![q0.val, 0])

/-- The weights' block at any point is the whole weight array. -/
theorem read_w (c : Dev nD) (t : Fin cfg0.N) (k q' : Fin 1024) : iblk m c 1 t (ix2 k q') = V m c main_v8 (ix2 k q') := by
  obtain ⟨e0, e1, e2, e3, e4, e5⟩ := idx_facts t
  show V m c main_v8 (((cfg0.win 1).blk t).view.emb (ix2 k q')) = V m c main_v8 (ix2 k q')
  refine congrArg _ (funext fun a => Fin.ext ?_)
  match a with
  | ⟨0, _⟩ => show win0_1.index t (0 : Fin 2) * 1024 + 1 * k.val = k.val; omega
  | ⟨1, _⟩ => show win0_1.index t (1 : Fin 2) * 1024 + 1 * q'.val = q'.val; omega

/-- Row `p` of the block of `x` at point `t` is row `1024·(block row) + p` of `x`. -/
theorem read_x (c : Dev nD) (t : Fin cfg0.N) (p k : Fin 1024) (i0 : Fin 65536)
    (h : i0.val = win0_2.index t (0 : Fin 2) * 1024 + p.val) : iblk m c 0 t (ix2 p k) = V m c main_arg0 (ix2 i0 k) := by
  obtain ⟨e0, e1, e2, e3, e4, e5⟩ := idx_facts t
  show V m c main_arg0 (((cfg0.win 0).blk t).view.emb (ix2 p k)) = V m c main_arg0 (ix2 i0 k)
  refine congrArg _ (funext fun a => Fin.ext ?_)
  match a with
  | ⟨0, _⟩ => show win0_0.index t (0 : Fin 2) * 1024 + 1 * p.val = i0.val; omega
  | ⟨1, _⟩ => show win0_0.index t (1 : Fin 2) * 1024 + 1 * k.val = k.val; omega

/-- WHAT POINT `t` WRITES BACK is block `t` of `G` of the arrays as the region finds them. -/
theorem flushed_eq (c : Dev nD) (t : Fin cfg0.N) :
    (dats m 0 c).flushed 2 t = ((cfg0.win 2).blk t).view.read (Elt Ideal) (G (V m c main_arg0) (V m c main_v8)) := by
  rw [Cert.KernelIdeal.Value.flushed2]
  unfold out0_2
  rw [View.canon_unit_zero hz]
  simp only [View.ld_unit_zero (S := S1024x1024) hz]
  obtain ⟨e0, e1, e2, e3, e4, e5⟩ := idx_facts t
  funext j
  obtain ⟨p, q, rfl⟩ : ∃ (p : Fin 1024) (q : Fin 1024), j = ix2 p q := ⟨j 0, j 1, eq_ix2 j⟩
  show k0_pay1 (F := Ideal) (k0_pay2 (iblk m c 0 t)) (Scalar.ofBits .f32 0xC2480000#32) (Scalar.ofBits .f32 0x42480000#32) (iblk m c 1 t) (ix2 p q)
    = G (V m c main_arg0) (V m c main_v8) (((cfg0.win 2).blk t).view.emb (ix2 p q))
  refine (body_at (iblk m c 0 t) (iblk m c 1 t) p q).trans ?_
  have hq : (⟨((((cfg0.win 2).blk t).view.emb (ix2 p q)) 1).val, idx2_lt1 _⟩ : Fin 1024) = q := by
    apply Fin.ext
    show win0_2.index t (1 : Fin 2) * 1024 + 1 * q.val = q.val
    omega
  unfold G
  rw [hq]
  refine congrArg₂ (fun W r => rowK W r q) ?_ ?_
  · funext k q'
    exact read_w m c t k q'
  · funext k
    exact read_x m c t p k _ (by show win0_2.index t (0 : Fin 2) * 1024 + 1 * p.val = _; omega)

/-- An index of the array is in point `t`'s block iff each coordinate is in the block's range on its axis. -/
theorem mem_blk (t : Fin cfg0.N) (i : S65536x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v9).slice (win0_2.rect t)).set ↔ _
  rw [View.set_slice_whole, Rect.mem_set_unit]
  exact Iff.rfl

/-- Every entry of the result lies in the block of the point whose block row is its row divided by 1024. -/
theorem cover (i : S65536x1024.Idx) :
    ∃ t : Fin cfg0.N, (cfg0.win 2).flush t = true ∧ i ∈ ((cfg0.win 2).blk t).view.set := by
  have hi0 : (i 0).val < 65536 := (i 0).isLt
  have hi1 : (i 1).val < 1024 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the run is `G` of `x` as launched and of the weights as the region finds them. -/
theorem final (c : Dev nD) :
    (dats m 0 c).arrAt 2 cfg0.N = G (m ((c : Thread nD τ).loc main_arg0)) (V m c main_v8) := by
  rw [← V_main_arg0 m c]
  exact (dats m 0 c).arrAt_eq_of_cover 2 (G (V m c main_arg0) (V m c main_v8)) (fun t _ => flushed_eq m c t) cover

/-- The kernel's run with the result array named as that function, the arguments unchanged. -/
theorem run : θ_run defs (onTc (τ := τ) (main (F := Ideal))) ⟨m, fun _ => 0, ρ⟩ fun r => ∀ c : Dev nD,
      r.2.mem ((c : Thread nD τ).loc main_v9) = G (m ((c : Thread nD τ).loc main_arg0)) (V m c main_v8)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Array

end
-- ==== Proof.KernelW.lean ====
/-
  The weight array as the region finds it.

  Before the region the program rewrites the weight array `a` (rows indexed first): it takes each row's norm
  `sqrt (Σ_k a_{r k}²)`, compares it with a small constant, chooses row by row between a small constant and zero, adds the
  chosen value into column `0` of `a` (`mfixK a`), transposes the result and rounds it to sixteen bits. `V_main_v8` reads the
  staged array as exactly that function of the weight array as launched; `mfixK` is written in the program's own operations,
  in order, so the reading is by unfolding the sequence of operations and nothing else.
-/
import proofs.«108034_j15393162789091_2_alg».proof.Proof.Gen.KernelIdeal.Frame
import Idealize.ShloMosaic.Lib.StableHlo.Run
import Idealize.ShloMosaic.PureOps.Ideal

noncomputable section

namespace Cert.KernelIdeal.W

open Cert.KernelIdeal Cert.KernelIdeal.Gen Idealize.ShloMosaic Idealize.ShloMosaic.TcCoe Idealize.SL.Sem
open Idealize.ShloMosaic.StableHlo

/-- The weight array with its first column adjusted, as a function of the weight array `a`, in the program's own
    operations in order: the rows' norms `sqrt (Σ_k a² )`, their comparison with a small constant, the choice between two
    constants row by row, and the addition of the chosen values into column `0` of `a`. -/
def mfixK (a : FVec Ideal S1024x1024 .f32) : FVec Ideal S1024x1024 .f32 :=
  Host.scatter scatter_S1024x1024_S1_S1024_0_1_1_0 FloatOps.addf a
    (broadcastInDim S1 ![] bcast_S_S1 (constantI S_ 32 0#32))
    (id (select
      (cmpf .olt
        (Host.sqrt (Host.reduceAdd (mulf a a) (constant S_ .f32 0x00000000#32) reducesTo_S1024x1024_S1024_d1 h_S_))
        (broadcastInDim S1024 ![] bcast_S_S1024 (constant S_ .f32 0x322BCC77#32)))
      (broadcastInDim S1024 ![] bcast_S_S1024 (constant S_ .f32 0x358637BD#32))
      (broadcastInDim S1024 ![] bcast_S_S1024 (constant S_ .f32 0x00000000#32))))

/-- The array the second window stages, as the region finds it: the adjusted weight array transposed and rounded to
    sixteen bits, of the weight array as launched. -/
theorem V_main_v8 (m : (ℓ : Loc nD τ sig) → Buf (Elt Ideal) ℓ) (c : Dev nD) :
    (V m c main_v8 : S1024x1024.Idx → EReal)
      = truncf .bf16 (transpose S1024x1024 [1, 0] (mfixK (m ((c : Thread nD τ).loc main_arg1)))
          transposes_S1024x1024_S1024x1024_1_0) bitsLt_bf16_f32 := by
  dsimp only [Gen.V]
  simp only [Gen.hostOps0, Gen.hostOps0_1, Gen.hostOps0_2, Gen.hostOps0_3, List.flatten_cons, List.flatten_nil,
    List.append_nil, List.cons_append, List.nil_append]
  after_results
  rfl

end Cert.KernelIdeal.W

end
-- ==== Proof.RefRun.lean ====
/-
  The reference program's @main as one straight line of host operations, and its run.

  @main calls thirteen module-local functions (a row norm of the weight, a scalar select, the replacement of
  non-finite entries — which itself calls three selects —, three row norms of the activations, four clips,
  an infinity test and two more selects). A call means the callee's body on the operands: each callee's
  operations are written here at the call site, its formal arguments replaced by the actual buffers and each
  value of its body by the buffer the call's record gives it. With @main's own sixty-seven operations that is
  `ops`, 138 operations in execution order (108 from the first window of @main, 30 from the second).

  `main_eq`: @main is `seq ops` — the functions' definitions unfolded at their calls, the records at their
  fields, sequencing reassociated. `run_main`: on the compiled mesh, for any float values and from any memory
  with zero counters, every weakly fair execution of @main terminates, and in every final state each buffer
  holds the fold of `ops` (`after ops`) over the launch contents.
-/
import proofs.«108034_j15393162789091_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 138 operations in execution order, each call's operations in place of the call. -/
abbrev ops : List (HloOp τ sig (Elt F)) :=
  [ TRef.binary (.of main_arg1 : TRef sig ⟨S1024x1024, .f32⟩) (.of main_arg1 : TRef sig ⟨S1024x1024, .f32⟩) (.of main_call0_v0 : TRef sig ⟨S1024x1024, .f32⟩) mulf,
    TRef.nullary (.of main_call0_cst : TRef sig ⟨S_, .f32⟩) (constant S_ .f32 0x00000000#32),
    TRef.binary (.of main_call0_v0 : TRef sig ⟨S1024x1024, .f32⟩) (.of main_call0_cst : TRef sig ⟨S_, .f32⟩) (.of main_call0_v1 : TRef sig ⟨S1024, .f32⟩) (fun x v => Host.reduceAdd x v reducesTo_S1024x1024_S1024_d1 h_S_),
    TRef.unary (.of main_call0_v1 : TRef sig ⟨S1024, .f32⟩) (.of main_v0 : TRef sig ⟨S1024, .f32⟩) Host.sqrt,
    nullary main_cst (constant S_ .f32 0x322BCC77#32),
    unary main_cst main_v1 (broadcastInDim S1024 ![] bcast_S_S1024 : (⟨S_, .f32⟩ : BufTy).Contents (Elt F) → (⟨S1024, .f32⟩ : BufTy).Contents (Elt F)),
    binary main_v0 main_v1 main_v2 (cmpf .olt : (⟨S1024, .f32⟩ : BufTy).Contents (Elt F) → (⟨S1024, .f32⟩ : BufTy).Contents (Elt F) → (⟨S1024, .i1⟩ : BufTy).Contents (Elt F)),
    nullary main_cst_0 (constant S_ .f32 0x358637BD#32),
    nullary main_cst_1 (constant S_ .f32 0x00000000#32),
    TRef.unary (.of main_cst_0 : TRef sig ⟨S_, .f32⟩) (.of main_call1_v0 : TRef sig ⟨S1024, .f32⟩) (broadcastInDim S1024 ![] bcast_S_S1024),
    TRef.unary (.of main_cst_1 : TRef sig ⟨S_, .f32⟩) (.of main_call1_v1 : TRef sig ⟨S1024, .f32⟩) (broadcastInDim S1024 ![] bcast_S_S1024),
    TRef.ternary (.of main_v2 : TRef sig ⟨S1024, .i1⟩) (.of main_call1_v0 : TRef sig ⟨S1024, .f32⟩) (.of main_call1_v1 : TRef sig ⟨S1024, .f32⟩) (.of main_v3 : TRef sig ⟨S1024, .f32⟩) select,
    nullary main_c (constantI S_ 32 0#32),
    unary main_c main_v4 (broadcastInDim S1 ![] bcast_S_S1 : (⟨S_, .i32⟩ : BufTy).Contents (Elt F) → (⟨S1, .i32⟩ : BufTy).Contents (Elt F)),
    unary main_v3 main_v5 (id : (⟨S1024, .f32⟩ : BufTy).Contents (Elt F) → (⟨S1024, .f32⟩ : BufTy).Contents (Elt F)),
    ternary main_arg1 main_v4 main_v5 main_v6 ((fun x i u => Host.scatter scatter_S1024x1024_S1_S1024_0_1_1_0 FloatOps.addf x i u) : (⟨S1024x1024, .f32⟩ : BufTy).Contents (Elt F) → (⟨S1, .i32⟩ : BufTy).Contents (Elt F) → (⟨S1024, .f32⟩ : BufTy).Contents (Elt F) → (⟨S1024x1024, .f32⟩ : BufTy).Contents (Elt F)),
    nullary main_cst_2 (constant S_ .f32 0x00000000#32),
    TRef.binary (.of main_arg0 : TRef sig ⟨S65536x1024, .f32⟩) (.of main_arg0 : TRef sig ⟨S65536x1024, .f32⟩) (.of main_call2_v0 : TRef sig ⟨S65536x1024, .i1⟩) (cmpf .une),
    TRef.unary (.of main_cst_2 : TRef sig ⟨S_, .f32⟩) (.of main_call2_v1 : TRef sig ⟨S_, .f32⟩) id,
    TRef.unary (.of main_call2_v1 : TRef sig ⟨S_, .f32⟩) (.of main_call2_call0_v0 : TRef sig ⟨S65536x1024, .f32⟩) (broadcastInDim S65536x1024 ![] bcast_S_S65536x1024),
    TRef.ternary (.of main_call2_v0 : TRef sig ⟨S65536x1024, .i1⟩) (.of main_call2_call0_v0 : TRef sig ⟨S65536x1024, .f32⟩) (.of main_arg0 : TRef sig ⟨S65536x1024, .f32⟩) (.of main_call2_v2 : TRef sig ⟨S65536x1024, .f32⟩) select,
    TRef.nullary (.of main_call2_cst : TRef sig ⟨S_, .f32⟩) (constant S_ .f32 0x7F800000#32),
    TRef.unary (.of main_call2_cst : TRef sig ⟨S_, .f32⟩) (.of main_call2_v3 : TRef sig ⟨S65536x1024, .f32⟩) (broadcastInDim S65536x1024 ![] bcast_S_S65536x1024),
    TRef.binary (.of main_call2_v2 : TRef sig ⟨S65536x1024, .f32⟩) (.of main_call2_v3 : TRef sig ⟨S65536x1024, .f32⟩) (.of main_call2_v4 : TRef sig ⟨S65536x1024, .i1⟩) (cmpf .oeq),
    TRef.nullary (.of main_call2_cst_0 : TRef sig ⟨S_, .f32⟩) (constant S_ .f32 0x7F7FFFFF#32),
    TRef.unary (.of main_call2_cst_0 : TRef sig ⟨S_, .f32⟩) (.of main_call2_call1_v0 : TRef sig ⟨S65536x1024, .f32⟩) (broadcastInDim S65536x1024 ![] bcast_S_S65536x1024),
    TRef.ternary (.of main_call2_v4 : TRef sig ⟨S65536x1024, .i1⟩) (.of main_call2_call1_v0 : TRef sig ⟨S65536x1024, .f32⟩) (.of main_call2_v2 : TRef sig ⟨S65536x1024, .f32⟩) (.of main_call2_v5 : TRef sig ⟨S65536x1024, .f32⟩) select,
    TRef.nullary (.of main_call2_cst_1 : TRef sig ⟨S_, .f32⟩) (constant S_ .f32 0xFF800000#32),
    TRef.unary (.of main_call2_cst_1 : TRef sig ⟨S_, .f32⟩) (.of main_call2_v6 : TRef sig ⟨S65536x1024, .f32⟩) (broadcastInDim S65536x1024 ![] bcast_S_S65536x1024),
    TRef.binary (.of main_call2_v5 : TRef sig ⟨S65536x1024, .f32⟩) (.of main_call2_v6 : TRef sig ⟨S65536x1024, .f32⟩) (.of main_call2_v7 : TRef sig ⟨S65536x1024, .i1⟩) (cmpf .oeq),
    TRef.nullary (.of main_call2_cst_2 : TRef sig ⟨S_, .f32⟩) (constant S_ .f32 0xFF7FFFFF#32),
    TRef.unary (.of main_call2_cst_2 : TRef sig ⟨S_, .f32⟩) (.of main_call2_call2_v0 : TRef sig ⟨S65536x1024, .f32⟩) (broadcastInDim S65536x1024 ![] bcast_S_S65536x1024),
    TRef.ternary (.of main_call2_v7 : TRef sig ⟨S65536x1024, .i1⟩) (.of main_call2_call2_v0 : TRef sig ⟨S65536x1024, .f32⟩) (.of main_call2_v5 : TRef sig ⟨S65536x1024, .f32⟩) (.of main_v7 : TRef sig ⟨S65536x1024, .f32⟩) select,
    TRef.binary (.of main_v7 : TRef sig ⟨S65536x1024, .f32⟩) (.of main_v7 : TRef sig ⟨S65536x1024, .f32⟩) (.of main_call3_v0 : TRef sig ⟨S65536x1024, .f32⟩) mulf,
    TRef.nullary (.of main_call3_cst : TRef sig ⟨S_, .f32⟩) (constant S_ .f32 0x00000000#32),
    TRef.binary (.of main_call3_v0 : TRef sig ⟨S65536x1024, .f32⟩) (.of main_call3_cst : TRef sig ⟨S_, .f32⟩) (.of main_call3_v1 : TRef sig ⟨S65536, .f32⟩) (fun x v => Host.reduceAdd x v reducesTo_S65536x1024_S65536_d1 h_S_),
    TRef.unary (.of main_call3_v1 : TRef sig ⟨S65536, .f32⟩) (.of main_call3_v2 : TRef sig ⟨S65536x1, .f32⟩) (broadcastInDim S65536x1 ![0] bcast_S65536_S65536x1_0),
    TRef.unary (.of main_call3_v2 : TRef sig ⟨S65536x1, .f32⟩) (.of main_v8 : TRef sig ⟨S65536x1, .f32⟩) Host.sqrt,
    nullary main_cst_3 (constant S_ .f32 0x26901D7D#32),
    unary main_cst_3 main_v9 (broadcastInDim S65536x1 ![] bcast_S_S65536x1 : (⟨S_, .f32⟩ : BufTy).Contents (Elt F) → (⟨S65536x1, .f32⟩ : BufTy).Contents (Elt F)),
    binary main_v8 main_v9 main_v10 (maximumf : (⟨S65536x1, .f32⟩ : BufTy).Contents (Elt F) → (⟨S65536x1, .f32⟩ : BufTy).Contents (Elt F) → (⟨S65536x1, .f32⟩ : BufTy).Contents (Elt F)),
    nullary main_cst_4 (constant S_ .f32 0x3F800000#32),
    unary main_cst_4 main_v11 (broadcastInDim S65536x1 ![] bcast_S_S65536x1 : (⟨S_, .f32⟩ : BufTy).Contents (Elt F) → (⟨S65536x1, .f32⟩ : BufTy).Contents (Elt F)),
    binary main_v11 main_v10 main_v12 (mulf : (⟨S65536x1, .f32⟩ : BufTy).Contents (Elt F) → (⟨S65536x1, .f32⟩ : BufTy).Contents (Elt F) → (⟨S65536x1, .f32⟩ : BufTy).Contents (Elt F)),
    nullary main_cst_5 (constant S_ .f32 0xBF7D70A4#32),
    nullary main_cst_6 (constant S_ .f32 0x3F7D70A4#32),
    TRef.unary (.of main_cst_5 : TRef sig ⟨S_, .f32⟩) (.of main_call4_v0 : TRef sig ⟨S_, .f32⟩) id,
    TRef.unary (.of main_call4_v0 : TRef sig ⟨S_, .f32⟩) (.of main_call4_v1 : TRef sig ⟨S65536x1, .f32⟩) (broadcastInDim S65536x1 ![] bcast_S_S65536x1),
    TRef.binary (.of main_call4_v1 : TRef sig ⟨S65536x1, .f32⟩) (.of main_v12 : TRef sig ⟨S65536x1, .f32⟩) (.of main_call4_v2 : TRef sig ⟨S65536x1, .f32⟩) maximumf,
    TRef.unary (.of main_cst_6 : TRef sig ⟨S_, .f32⟩) (.of main_call4_v3 : TRef sig ⟨S_, .f32⟩) id,
    TRef.unary (.of main_call4_v3 : TRef sig ⟨S_, .f32⟩) (.of main_call4_v4 : TRef sig ⟨S65536x1, .f32⟩) (broadcastInDim S65536x1 ![] bcast_S_S65536x1),
    TRef.binary (.of main_call4_v4 : TRef sig ⟨S65536x1, .f32⟩) (.of main_call4_v2 : TRef sig ⟨S65536x1, .f32⟩) (.of main_v13 : TRef sig ⟨S65536x1, .f32⟩) minimumf,
    nullary main_cst_7 (constant S_ .f32 0xBF7D70A2#32),
    nullary main_cst_8 (constant S_ .f32 0x3F7D70A2#32),
    TRef.unary (.of main_cst_7 : TRef sig ⟨S_, .f32⟩) (.of main_call5_v0 : TRef sig ⟨S_, .f32⟩) id,
    TRef.unary (.of main_call5_v0 : TRef sig ⟨S_, .f32⟩) (.of main_call5_v1 : TRef sig ⟨S65536x1, .f32⟩) (broadcastInDim S65536x1 ![] bcast_S_S65536x1),
    TRef.binary (.of main_call5_v1 : TRef sig ⟨S65536x1, .f32⟩) (.of main_v13 : TRef sig ⟨S65536x1, .f32⟩) (.of main_call5_v2 : TRef sig ⟨S65536x1, .f32⟩) maximumf,
    TRef.unary (.of main_cst_8 : TRef sig ⟨S_, .f32⟩) (.of main_call5_v3 : TRef sig ⟨S_, .f32⟩) id,
    TRef.unary (.of main_call5_v3 : TRef sig ⟨S_, .f32⟩) (.of main_call5_v4 : TRef sig ⟨S65536x1, .f32⟩) (broadcastInDim S65536x1 ![] bcast_S_S65536x1),
    TRef.binary (.of main_call5_v4 : TRef sig ⟨S65536x1, .f32⟩) (.of main_call5_v2 : TRef sig ⟨S65536x1, .f32⟩) (.of main_v14 : TRef sig ⟨S65536x1, .f32⟩) minimumf,
    unary main_v14 main_v15 (Host.log1p : (⟨S65536x1, .f32⟩ : BufTy).Contents (Elt F) → (⟨S65536x1, .f32⟩ : BufTy).Contents (Elt F)),
    unary main_v14 main_v16 (Host.negf : (⟨S65536x1, .f32⟩ : BufTy).Contents (Elt F) → (⟨S65536x1, .f32⟩ : BufTy).Contents (Elt F)),
    unary main_v16 main_v17 (Host.log1p : (⟨S65536x1, .f32⟩ : BufTy).Contents (Elt F) → (⟨S65536x1, .f32⟩ : BufTy).Contents (Elt F)),
    binary main_v15 main_v17 main_v18 (subf : (⟨S65536x1, .f32⟩ : BufTy).Contents (Elt F) → (⟨S65536x1, .f32⟩ : BufTy).Contents (Elt F) → (⟨S65536x1, .f32⟩ : BufTy).Contents (Elt F)),
    nullary main_cst_9 (constant S_ .f32 0x3F000000#32),
    unary main_cst_9 main_v19 (broadcastInDim S65536x1 ![] bcast_S_S65536x1 : (⟨S_, .f32⟩ : BufTy).Contents (Elt F) → (⟨S65536x1, .f32⟩ : BufTy).Contents (Elt F)),
    binary main_v19 main_v18 main_v20 (mulf : (⟨S65536x1, .f32⟩ : BufTy).Contents (Elt F) → (⟨S65536x1, .f32⟩ : BufTy).Contents (Elt F) → (⟨S65536x1, .f32⟩ : BufTy).Contents (Elt F)),
    nullary main_cst_10 (constant S_ .f32 0x3F800000#32),
    unary main_cst_10 main_v21 (broadcastInDim S65536x1 ![] bcast_S_S65536x1 : (⟨S_, .f32⟩ : BufTy).Contents (Elt F) → (⟨S65536x1, .f32⟩ : BufTy).Contents (Elt F)),
    binary main_v21 main_v20 main_v22 (mulf : (⟨S65536x1, .f32⟩ : BufTy).Contents (Elt F) → (⟨S65536x1, .f32⟩ : BufTy).Contents (Elt F) → (⟨S65536x1, .f32⟩ : BufTy).Contents (Elt F)),
    binary main_v22 main_v10 main_v23 (Host.divf : (⟨S65536x1, .f32⟩ : BufTy).Contents (Elt F) → (⟨S65536x1, .f32⟩ : BufTy).Contents (Elt F) → (⟨S65536x1, .f32⟩ : BufTy).Contents (Elt F)),
    unary main_v23 main_v24 (broadcastInDim S65536x1024 ![0, 1] bcast_S65536x1_S65536x1024_0_1 : (⟨S65536x1, .f32⟩ : BufTy).Contents (Elt F) → (⟨S65536x1024, .f32⟩ : BufTy).Contents (Elt F)),
    binary main_v24 main_v7 main_v25 (mulf : (⟨S65536x1024, .f32⟩ : BufTy).Contents (Elt F) → (⟨S65536x1024, .f32⟩ : BufTy).Contents (Elt F) → (⟨S65536x1024, .f32⟩ : BufTy).Contents (Elt F)),
    nullary main_cst_11 (constant S_ .f32 0xC2480000#32),
    nullary main_cst_12 (constant S_ .f32 0x42480000#32),
    TRef.unary (.of main_cst_11 : TRef sig ⟨S_, .f32⟩) (.of main_call6_v0 : TRef sig ⟨S_, .f32⟩) id,
    TRef.unary (.of main_call6_v0 : TRef sig ⟨S_, .f32⟩) (.of main_call6_v1 : TRef sig ⟨S65536x1024, .f32⟩) (broadcastInDim S65536x1024 ![] bcast_S_S65536x1024),
    TRef.binary (.of main_call6_v1 : TRef sig ⟨S65536x1024, .f32⟩) (.of main_v25 : TRef sig ⟨S65536x1024, .f32⟩) (.of main_call6_v2 : TRef sig ⟨S65536x1024, .f32⟩) maximumf,
    TRef.unary (.of main_cst_12 : TRef sig ⟨S_, .f32⟩) (.of main_call6_v3 : TRef sig ⟨S_, .f32⟩) id,
    TRef.unary (.of main_call6_v3 : TRef sig ⟨S_, .f32⟩) (.of main_call6_v4 : TRef sig ⟨S65536x1024, .f32⟩) (broadcastInDim S65536x1024 ![] bcast_S_S65536x1024),
    TRef.binary (.of main_call6_v4 : TRef sig ⟨S65536x1024, .f32⟩) (.of main_call6_v2 : TRef sig ⟨S65536x1024, .f32⟩) (.of main_v26 : TRef sig ⟨S65536x1024, .f32⟩) minimumf,
    unary main_v6 main_v27 ((transpose S1024x1024 [1, 0] · transposes_S1024x1024_S1024x1024_1_0) : (⟨S1024x1024, .f32⟩ : BufTy).Contents (Elt F) → (⟨S1024x1024, .f32⟩ : BufTy).Contents (Elt F)),
    binary main_v26 main_v27 main_v28 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    nullary main_cst_13 (constant S_ .f32 0xC47A0000#32),
    nullary main_cst_14 (constant S_ .f32 0x447A0000#32),
    TRef.unary (.of main_cst_13 : TRef sig ⟨S_, .f32⟩) (.of main_call7_v0 : TRef sig ⟨S_, .f32⟩) id,
    TRef.unary (.of main_call7_v0 : TRef sig ⟨S_, .f32⟩) (.of main_call7_v1 : TRef sig ⟨S65536x1024, .f32⟩) (broadcastInDim S65536x1024 ![] bcast_S_S65536x1024),
    TRef.binary (.of main_call7_v1 : TRef sig ⟨S65536x1024, .f32⟩) (.of main_v28 : TRef sig ⟨S65536x1024, .f32⟩) (.of main_call7_v2 : TRef sig ⟨S65536x1024, .f32⟩) maximumf,
    TRef.unary (.of main_cst_14 : TRef sig ⟨S_, .f32⟩) (.of main_call7_v3 : TRef sig ⟨S_, .f32⟩) id,
    TRef.unary (.of main_call7_v3 : TRef sig ⟨S_, .f32⟩) (.of main_call7_v4 : TRef sig ⟨S65536x1024, .f32⟩) (broadcastInDim S65536x1024 ![] bcast_S_S65536x1024),
    TRef.binary (.of main_call7_v4 : TRef sig ⟨S65536x1024, .f32⟩) (.of main_call7_v2 : TRef sig ⟨S65536x1024, .f32⟩) (.of main_v29 : TRef sig ⟨S65536x1024, .f32⟩) minimumf,
    TRef.binary (.of main_v29 : TRef sig ⟨S65536x1024, .f32⟩) (.of main_v29 : TRef sig ⟨S65536x1024, .f32⟩) (.of main_call8_v0 : TRef sig ⟨S65536x1024, .f32⟩) mulf,
    TRef.nullary (.of main_call8_cst : TRef sig ⟨S_, .f32⟩) (constant S_ .f32 0x00000000#32),
    TRef.binary (.of main_call8_v0 : TRef sig ⟨S65536x1024, .f32⟩) (.of main_call8_cst : TRef sig ⟨S_, .f32⟩) (.of main_call8_v1 : TRef sig ⟨S65536, .f32⟩) (fun x v => Host.reduceAdd x v reducesTo_S65536x1024_S65536_d1 h_S_),
    TRef.unary (.of main_call8_v1 : TRef sig ⟨S65536, .f32⟩) (.of main_call8_v2 : TRef sig ⟨S65536x1, .f32⟩) (broadcastInDim S65536x1 ![0] bcast_S65536_S65536x1_0),
    TRef.unary (.of main_call8_v2 : TRef sig ⟨S65536x1, .f32⟩) (.of main_v30 : TRef sig ⟨S65536x1, .f32⟩) Host.sqrt,
    nullary main_cst_15 (constant S_ .f32 0x26901D7D#32),
    unary main_cst_15 main_v31 (broadcastInDim S65536x1 ![] bcast_S_S65536x1 : (⟨S_, .f32⟩ : BufTy).Contents (Elt F) → (⟨S65536x1, .f32⟩ : BufTy).Contents (Elt F)),
    binary main_v30 main_v31 main_v32 (maximumf : (⟨S65536x1, .f32⟩ : BufTy).Contents (Elt F) → (⟨S65536x1, .f32⟩ : BufTy).Contents (Elt F) → (⟨S65536x1, .f32⟩ : BufTy).Contents (Elt F)),
    nullary main_cst_16 (constant S_ .f32 0x3F800000#32),
    unary main_cst_16 main_v33 (broadcastInDim S65536x1 ![] bcast_S_S65536x1 : (⟨S_, .f32⟩ : BufTy).Contents (Elt F) → (⟨S65536x1, .f32⟩ : BufTy).Contents (Elt F)),
    binary main_v33 main_v32 main_v34 (mulf : (⟨S65536x1, .f32⟩ : BufTy).Contents (Elt F) → (⟨S65536x1, .f32⟩ : BufTy).Contents (Elt F) → (⟨S65536x1, .f32⟩ : BufTy).Contents (Elt F)),
    unary main_v34 main_v35 (Host.tanh : (⟨S65536x1, .f32⟩ : BufTy).Contents (Elt F) → (⟨S65536x1, .f32⟩ : BufTy).Contents (Elt F)),
    unary main_v35 main_v36 (broadcastInDim S65536x1024 ![0, 1] bcast_S65536x1_S65536x1024_0_1 : (⟨S65536x1, .f32⟩ : BufTy).Contents (Elt F) → (⟨S65536x1024, .f32⟩ : BufTy).Contents (Elt F)),
    binary main_v36 main_v29 main_v37 (mulf : (⟨S65536x1024, .f32⟩ : BufTy).Contents (Elt F) → (⟨S65536x1024, .f32⟩ : BufTy).Contents (Elt F) → (⟨S65536x1024, .f32⟩ : BufTy).Contents (Elt F)),
    nullary main_cst_17 (constant S_ .f32 0x3F800000#32),
    unary main_cst_17 main_v38 (broadcastInDim S65536x1 ![] bcast_S_S65536x1 : (⟨S_, .f32⟩ : BufTy).Contents (Elt F) → (⟨S65536x1, .f32⟩ : BufTy).Contents (Elt F)),
    binary main_v38 main_v32 main_v39 (mulf : (⟨S65536x1, .f32⟩ : BufTy).Contents (Elt F) → (⟨S65536x1, .f32⟩ : BufTy).Contents (Elt F) → (⟨S65536x1, .f32⟩ : BufTy).Contents (Elt F)),
    unary main_v39 main_v40 (broadcastInDim S65536x1024 ![0, 1] bcast_S65536x1_S65536x1024_0_1 : (⟨S65536x1, .f32⟩ : BufTy).Contents (Elt F) → (⟨S65536x1024, .f32⟩ : BufTy).Contents (Elt F)),
    binary main_v37 main_v40 main_v41 (Host.divf : (⟨S65536x1024, .f32⟩ : BufTy).Contents (Elt F) → (⟨S65536x1024, .f32⟩ : BufTy).Contents (Elt F) → (⟨S65536x1024, .f32⟩ : BufTy).Contents (Elt F)),
    TRef.binary (.of main_v41 : TRef sig ⟨S65536x1024, .f32⟩) (.of main_v41 : TRef sig ⟨S65536x1024, .f32⟩) (.of main_call9_v0 : TRef sig ⟨S65536x1024, .f32⟩) mulf,
    TRef.nullary (.of main_call9_cst : TRef sig ⟨S_, .f32⟩) (constant S_ .f32 0x00000000#32),
    TRef.binary (.of main_call9_v0 : TRef sig ⟨S65536x1024, .f32⟩) (.of main_call9_cst : TRef sig ⟨S_, .f32⟩) (.of main_call9_v1 : TRef sig ⟨S65536, .f32⟩) (fun x v => Host.reduceAdd x v reducesTo_S65536x1024_S65536_d1 h_S_),
    TRef.unary (.of main_call9_v1 : TRef sig ⟨S65536, .f32⟩) (.of main_call9_v2 : TRef sig ⟨S65536x1, .f32⟩) (broadcastInDim S65536x1 ![0] bcast_S65536_S65536x1_0),
    TRef.unary (.of main_call9_v2 : TRef sig ⟨S65536x1, .f32⟩) (.of main_v42 : TRef sig ⟨S65536x1, .f32⟩) Host.sqrt,
    binary main_v42 main_v42 main_v43 (cmpf .une : (⟨S65536x1, .f32⟩ : BufTy).Contents (Elt F) → (⟨S65536x1, .f32⟩ : BufTy).Contents (Elt F) → (⟨S65536x1, .i1⟩ : BufTy).Contents (Elt F)),
    TRef.unary (.of main_v42 : TRef sig ⟨S65536x1, .f32⟩) (.of main_call10_v0 : TRef sig ⟨S65536x1, .f32⟩) Host.absf,
    TRef.nullary (.of main_call10_cst : TRef sig ⟨S_, .f32⟩) (constant S_ .f32 0x7F800000#32),
    TRef.unary (.of main_call10_cst : TRef sig ⟨S_, .f32⟩) (.of main_call10_v1 : TRef sig ⟨S65536x1, .f32⟩) (broadcastInDim S65536x1 ![] bcast_S_S65536x1),
    TRef.binary (.of main_call10_v0 : TRef sig ⟨S65536x1, .f32⟩) (.of main_call10_v1 : TRef sig ⟨S65536x1, .f32⟩) (.of main_v44 : TRef sig ⟨S65536x1, .i1⟩) (cmpf .oeq),
    binary main_v43 main_v44 main_v45 (ori : (⟨S65536x1, .i1⟩ : BufTy).Contents (Elt F) → (⟨S65536x1, .i1⟩ : BufTy).Contents (Elt F) → (⟨S65536x1, .i1⟩ : BufTy).Contents (Elt F)),
    nullary main_cst_18 (constant S_ .f32 0x00000000#32),
    TRef.unary (.of main_cst_18 : TRef sig ⟨S_, .f32⟩) (.of main_call11_v0 : TRef sig ⟨S_, .f32⟩) id,
    TRef.unary (.of main_call11_v0 : TRef sig ⟨S_, .f32⟩) (.of main_call11_v1 : TRef sig ⟨S65536x1, .f32⟩) (broadcastInDim S65536x1 ![] bcast_S_S65536x1),
    TRef.ternary (.of main_v45 : TRef sig ⟨S65536x1, .i1⟩) (.of main_call11_v1 : TRef sig ⟨S65536x1, .f32⟩) (.of main_v42 : TRef sig ⟨S65536x1, .f32⟩) (.of main_v46 : TRef sig ⟨S65536x1, .f32⟩) select,
    nullary main_cst_19 (constant S_ .f32 0x3089705F#32),
    unary main_cst_19 main_v47 (broadcastInDim S65536x1 ![] bcast_S_S65536x1 : (⟨S_, .f32⟩ : BufTy).Contents (Elt F) → (⟨S65536x1, .f32⟩ : BufTy).Contents (Elt F)),
    binary main_v46 main_v47 main_v48 (maximumf : (⟨S65536x1, .f32⟩ : BufTy).Contents (Elt F) → (⟨S65536x1, .f32⟩ : BufTy).Contents (Elt F) → (⟨S65536x1, .f32⟩ : BufTy).Contents (Elt F)),
    nullary main_cst_20 (constant S_ .f32 0x3F800000#32),
    unary main_cst_20 main_v49 (broadcastInDim S65536x1 ![] bcast_S_S65536x1 : (⟨S_, .f32⟩ : BufTy).Contents (Elt F) → (⟨S65536x1, .f32⟩ : BufTy).Contents (Elt F)),
    binary main_v46 main_v49 main_v50 (cmpf .ogt : (⟨S65536x1, .f32⟩ : BufTy).Contents (Elt F) → (⟨S65536x1, .f32⟩ : BufTy).Contents (Elt F) → (⟨S65536x1, .i1⟩ : BufTy).Contents (Elt F)),
    nullary main_cst_21 (constant S_ .f32 0x3F800000#32),
    unary main_cst_21 main_v51 (broadcastInDim S65536x1 ![] bcast_S_S65536x1 : (⟨S_, .f32⟩ : BufTy).Contents (Elt F) → (⟨S65536x1, .f32⟩ : BufTy).Contents (Elt F)),
    binary main_v51 main_v48 main_v52 (Host.divf : (⟨S65536x1, .f32⟩ : BufTy).Contents (Elt F) → (⟨S65536x1, .f32⟩ : BufTy).Contents (Elt F) → (⟨S65536x1, .f32⟩ : BufTy).Contents (Elt F)),
    unary main_v52 main_v53 (broadcastInDim S65536x1024 ![0, 1] bcast_S65536x1_S65536x1024_0_1 : (⟨S65536x1, .f32⟩ : BufTy).Contents (Elt F) → (⟨S65536x1024, .f32⟩ : BufTy).Contents (Elt F)),
    binary main_v41 main_v53 main_v54 (mulf : (⟨S65536x1024, .f32⟩ : BufTy).Contents (Elt F) → (⟨S65536x1024, .f32⟩ : BufTy).Contents (Elt F) → (⟨S65536x1024, .f32⟩ : BufTy).Contents (Elt F)),
    TRef.unary (.of main_v50 : TRef sig ⟨S65536x1, .i1⟩) (.of main_call12_v0 : TRef sig ⟨S65536x1024, .i1⟩) (broadcastInDim S65536x1024 ![0, 1] bcast_S65536x1_S65536x1024_0_1),
    TRef.ternary (.of main_call12_v0 : TRef sig ⟨S65536x1024, .i1⟩) (.of main_v54 : TRef sig ⟨S65536x1024, .f32⟩) (.of main_v41 : TRef sig ⟨S65536x1024, .f32⟩) (.of main_v55 : TRef sig ⟨S65536x1024, .f32⟩) select ]

-- 138 binds reassociated: the rewriting recurses once per statement
set_option maxRecDepth 8192 in
set_option maxHeartbeats 4000000 in
/-- @main is that straight line: the functions' definitions unfolded at their calls and the records at their
    fields, both sides are one chain of `hlo` steps once sequencing is reassociated. -/
theorem main_eq (c : Dev nD) : main (F := F) c = seq ops := by
  simp only [main, main_part0, main_part1, fn_norm.body, fn_where.body, fn_where_0.body, fn_where_1.body, fn_nan_to_num.body, fn_norm_2.body, fn_clip.body, fn_clip_3.body, fn_isinf.body, fn_where_4.body, fn_where_5.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Each operation touches TensorCore buffers only. -/
theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub ..,
    binary_bufs_sub .., nullary_bufs_sub .., nullary_bufs_sub .., unary_bufs_sub .., unary_bufs_sub .., ternary_bufs_sub ..,
    nullary_bufs_sub .., unary_bufs_sub .., unary_bufs_sub .., ternary_bufs_sub .., nullary_bufs_sub .., binary_bufs_sub ..,
    unary_bufs_sub .., unary_bufs_sub .., ternary_bufs_sub .., nullary_bufs_sub .., unary_bufs_sub .., binary_bufs_sub ..,
    nullary_bufs_sub .., unary_bufs_sub .., ternary_bufs_sub .., nullary_bufs_sub .., unary_bufs_sub .., binary_bufs_sub ..,
    nullary_bufs_sub .., unary_bufs_sub .., ternary_bufs_sub .., binary_bufs_sub .., nullary_bufs_sub .., binary_bufs_sub ..,
    unary_bufs_sub .., unary_bufs_sub .., nullary_bufs_sub .., unary_bufs_sub .., binary_bufs_sub .., nullary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., binary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., binary_bufs_sub .., nullary_bufs_sub .., binary_bufs_sub .., unary_bufs_sub .., unary_bufs_sub ..,
    nullary_bufs_sub .., unary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., binary_bufs_sub .., nullary_bufs_sub .., binary_bufs_sub .., unary_bufs_sub ..,
    unary_bufs_sub .., binary_bufs_sub .., unary_bufs_sub .., nullary_bufs_sub .., unary_bufs_sub .., binary_bufs_sub ..,
    binary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., nullary_bufs_sub ..,
    unary_bufs_sub .., binary_bufs_sub .., unary_bufs_sub .., binary_bufs_sub .., unary_bufs_sub .., ternary_bufs_sub ..⟩

set_option maxRecDepth 8192 in
set_option maxHeartbeats 4000000 in
/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValueDefs.lean ====
/-
  The reference's value as a composition of its arrays.

  The line of operations `RefRun.ops` is cut into ten consecutive stretches; each stretch computes one array of
  the program from arrays computed before it (the stabilised weight, the cleaned argument, the norm column, the
  scale column, the clipped tangent array, the clipped product, its norm column, the point before projection, its
  cleaned norm column, the result). Each array is named below by a definition written in the program's own
  operations, so that the fold of a stretch at its result buffer is that definition applied to the contents of the
  buffers it reads; a buffer a stretch does not write keeps its contents. Composed, the fold of the whole line at
  the result buffer is `out` of the argument's contents and of the transposed stabilised weight.
-/
import proofs.«108034_j15393162789091_2_alg».proof.Proof.RefRun
import proofs.«108034_j15393162789091_2_alg».proof.Proof.Spec
import Idealize.ShloMosaic.Lib.ValueIdx
import Idealize.ShloMosaic.Lib.IdealHost
import Idealize.ShloMosaic.Lib.Pipeline.Value
import Idealize.ShloMosaic.Lib.StableHlo.Run
import Idealize.ShloMosaic.PureOps.Ideal.Laws

noncomputable section

namespace Cert.ReferenceIdeal.RefValue

open Cert.ReferenceIdeal Cert.ReferenceIdeal.Gen Cert.ReferenceIdeal.RefRun Cert.Mobius Idealize.ShloMosaic Idealize.ShloMosaic.TcCoe
  Idealize.SL.Sem Idealize.ShloMosaic.StableHlo Idealize.ShloMosaic.ValueIdx

/-! ## The program's arrays, in its own operations -/

/-- The weight with its first column raised where a row's norm is tiny: the row norms, the comparison with 1e-8,
    the choice between 1e-6 and 0, added into column 0. Not opened here. -/
def mfixH (m : FVec Ideal S1024x1024 .f32) : FVec Ideal S1024x1024 .f32 :=
  have a0 : FVec Ideal S1024x1024 .f32 := mulf m m
  have acst : FVec Ideal S_ .f32 := constant S_ .f32 0x00000000#32
  have a1 : FVec Ideal S1024 .f32 := Host.reduceAdd a0 acst reducesTo_S1024x1024_S1024_d1 h_S_
  have v0 : FVec Ideal S1024 .f32 := Host.sqrt a1
  have cst : FVec Ideal S_ .f32 := constant S_ .f32 0x322BCC77#32
  have v1 : FVec Ideal S1024 .f32 := broadcastInDim S1024 ![] bcast_S_S1024 cst
  have v2 : IVec S1024 1 := cmpf .olt v0 v1
  have cst_0 : FVec Ideal S_ .f32 := constant S_ .f32 0x358637BD#32
  have cst_1 : FVec Ideal S_ .f32 := constant S_ .f32 0x00000000#32
  have b0 : FVec Ideal S1024 .f32 := broadcastInDim S1024 ![] bcast_S_S1024 cst_0
  have b1 : FVec Ideal S1024 .f32 := broadcastInDim S1024 ![] bcast_S_S1024 cst_1
  have v3 : FVec Ideal S1024 .f32 := select v2 b0 b1
  have c : IVec S_ 32 := constantI S_ 32 0#32
  have v4 : IVec S1 32 := broadcastInDim S1 ![] bcast_S_S1 c
  have v5 : FVec Ideal S1024 .f32 := id v3
  Host.scatter scatter_S1024x1024_S1_S1024_0_1_1_0 FloatOps.addf m v4 v5

/-- The stabilised weight transposed: the right operand of the product. -/
def wH (m : FVec Ideal S1024x1024 .f32) : FVec Ideal S1024x1024 .f32 :=
  transpose S1024x1024 [1, 0] (mfixH m) transposes_S1024x1024_S1024x1024_1_0

/-- The argument with infinities replaced, entry by entry. -/
def cleanH (x : FVec Ideal S65536x1024 .f32) : FVec Ideal S65536x1024 .f32 :=
  have z : FVec Ideal S_ .f32 := constant S_ .f32 0x00000000#32
  have v0 : IVec S65536x1024 1 := cmpf .une x x
  have v1 : FVec Ideal S_ .f32 := id z
  have a0 : FVec Ideal S65536x1024 .f32 := broadcastInDim S65536x1024 ![] bcast_S_S65536x1024 v1
  have v2 : FVec Ideal S65536x1024 .f32 := select v0 a0 x
  have cst : FVec Ideal S_ .f32 := constant S_ .f32 0x7F800000#32
  have v3 : FVec Ideal S65536x1024 .f32 := broadcastInDim S65536x1024 ![] bcast_S_S65536x1024 cst
  have v4 : IVec S65536x1024 1 := cmpf .oeq v2 v3
  have cst_0 : FVec Ideal S_ .f32 := constant S_ .f32 0x7F7FFFFF#32
  have a1 : FVec Ideal S65536x1024 .f32 := broadcastInDim S65536x1024 ![] bcast_S_S65536x1024 cst_0
  have v5 : FVec Ideal S65536x1024 .f32 := select v4 a1 v2
  have cst_1 : FVec Ideal S_ .f32 := constant S_ .f32 0xFF800000#32
  have v6 : FVec Ideal S65536x1024 .f32 := broadcastInDim S65536x1024 ![] bcast_S_S65536x1024 cst_1
  have v7 : IVec S65536x1024 1 := cmpf .oeq v5 v6
  have cst_2 : FVec Ideal S_ .f32 := constant S_ .f32 0xFF7FFFFF#32
  have a2 : FVec Ideal S65536x1024 .f32 := broadcastInDim S65536x1024 ![] bcast_S_S65536x1024 cst_2
  select v7 a2 v5

/-- The column of row norms: squares, row sums from zero, kept as a column, square root. -/
def normH (y : FVec Ideal S65536x1024 .f32) : FVec Ideal S65536x1 .f32 :=
  have v0 : FVec Ideal S65536x1024 .f32 := mulf y y
  have cst : FVec Ideal S_ .f32 := constant S_ .f32 0x00000000#32
  have v1 : FVec Ideal S65536 .f32 := Host.reduceAdd v0 cst reducesTo_S65536x1024_S65536_d1 h_S_
  have v2 : FVec Ideal S65536x1 .f32 := broadcastInDim S65536x1 ![0] bcast_S65536_S65536x1_0 v1
  Host.sqrt v2

/-- The norm column bounded below by 1e-15. -/
def pnormH (y : FVec Ideal S65536x1024 .f32) : FVec Ideal S65536x1 .f32 :=
  have v8 : FVec Ideal S65536x1 .f32 := normH y
  have cst_3 : FVec Ideal S_ .f32 := constant S_ .f32 0x26901D7D#32
  have v9 : FVec Ideal S65536x1 .f32 := broadcastInDim S65536x1 ![] bcast_S_S65536x1 cst_3
  maximumf v8 v9

/-- A column clipped between two scalars, as the program's `clip` spells it. -/
def clipC (a : FVec Ideal S65536x1 .f32) (lo hi : FVec Ideal S_ .f32) : FVec Ideal S65536x1 .f32 :=
  have v0 : FVec Ideal S_ .f32 := id lo
  have v1 : FVec Ideal S65536x1 .f32 := broadcastInDim S65536x1 ![] bcast_S_S65536x1 v0
  have v2 : FVec Ideal S65536x1 .f32 := maximumf v1 a
  have v3 : FVec Ideal S_ .f32 := id hi
  have v4 : FVec Ideal S65536x1 .f32 := broadcastInDim S65536x1 ![] bcast_S_S65536x1 v3
  minimumf v4 v2

/-- An array clipped between two scalars, likewise. -/
def clipX (a : FVec Ideal S65536x1024 .f32) (lo hi : FVec Ideal S_ .f32) : FVec Ideal S65536x1024 .f32 :=
  have v0 : FVec Ideal S_ .f32 := id lo
  have v1 : FVec Ideal S65536x1024 .f32 := broadcastInDim S65536x1024 ![] bcast_S_S65536x1024 v0
  have v2 : FVec Ideal S65536x1024 .f32 := maximumf v1 a
  have v3 : FVec Ideal S_ .f32 := id hi
  have v4 : FVec Ideal S65536x1024 .f32 := broadcastInDim S65536x1024 ![] bcast_S_S65536x1024 v3
  minimumf v4 v2

/-- The column of scales `artanh(|r|) / |r|` from the norm column. -/
def scaleH (u : FVec Ideal S65536x1 .f32) : FVec Ideal S65536x1 .f32 :=
  have cst_4 : FVec Ideal S_ .f32 := constant S_ .f32 0x3F800000#32
  have v11 : FVec Ideal S65536x1 .f32 := broadcastInDim S65536x1 ![] bcast_S_S65536x1 cst_4
  have v12 : FVec Ideal S65536x1 .f32 := mulf v11 u
  have cst_5 : FVec Ideal S_ .f32 := constant S_ .f32 0xBF7D70A4#32
  have cst_6 : FVec Ideal S_ .f32 := constant S_ .f32 0x3F7D70A4#32
  have v13 : FVec Ideal S65536x1 .f32 := clipC v12 cst_5 cst_6
  have cst_7 : FVec Ideal S_ .f32 := constant S_ .f32 0xBF7D70A2#32
  have cst_8 : FVec Ideal S_ .f32 := constant S_ .f32 0x3F7D70A2#32
  have v14 : FVec Ideal S65536x1 .f32 := clipC v13 cst_7 cst_8
  have v15 : FVec Ideal S65536x1 .f32 := Host.log1p v14
  have v16 : FVec Ideal S65536x1 .f32 := Host.negf v14
  have v17 : FVec Ideal S65536x1 .f32 := Host.log1p v16
  have v18 : FVec Ideal S65536x1 .f32 := subf v15 v17
  have cst_9 : FVec Ideal S_ .f32 := constant S_ .f32 0x3F000000#32
  have v19 : FVec Ideal S65536x1 .f32 := broadcastInDim S65536x1 ![] bcast_S_S65536x1 cst_9
  have v20 : FVec Ideal S65536x1 .f32 := mulf v19 v18
  have cst_10 : FVec Ideal S_ .f32 := constant S_ .f32 0x3F800000#32
  have v21 : FVec Ideal S65536x1 .f32 := broadcastInDim S65536x1 ![] bcast_S_S65536x1 cst_10
  have v22 : FVec Ideal S65536x1 .f32 := mulf v21 v20
  Host.divf v22 u

/-- The tangent array from the scale column and the cleaned argument: spread, multiplied, clipped to [-50, 50]. -/
def xtanH' (s : FVec Ideal S65536x1 .f32) (xc : FVec Ideal S65536x1024 .f32) : FVec Ideal S65536x1024 .f32 :=
  have v24 : FVec Ideal S65536x1024 .f32 := broadcastInDim S65536x1024 ![0, 1] bcast_S65536x1_S65536x1024_0_1 s
  have v25 : FVec Ideal S65536x1024 .f32 := mulf v24 xc
  have cst_11 : FVec Ideal S_ .f32 := constant S_ .f32 0xC2480000#32
  have cst_12 : FVec Ideal S_ .f32 := constant S_ .f32 0x42480000#32
  clipX v25 cst_11 cst_12

/-- The product with the transposed weight, clipped to [-1000, 1000]. -/
def mxH (t : FVec Ideal S65536x1024 .f32) (w : FVec Ideal S1024x1024 .f32) : FVec Ideal S65536x1024 .f32 :=
  have v28 : FVec Ideal S65536x1024 .f32 := Host.dotGeneral dot_S65536x1024_S1024x1024_S65536x1024_1_0_0_1_n_n none t w
  have cst_13 : FVec Ideal S_ .f32 := constant S_ .f32 0xC47A0000#32
  have cst_14 : FVec Ideal S_ .f32 := constant S_ .f32 0x447A0000#32
  clipX v28 cst_13 cst_14

/-- The point before projection from the bounded norm column `u` and the clipped product `v`: `(tanh u · v) / u`. -/
def yH' (u : FVec Ideal S65536x1 .f32) (v : FVec Ideal S65536x1024 .f32) : FVec Ideal S65536x1024 .f32 :=
  have cst_16 : FVec Ideal S_ .f32 := constant S_ .f32 0x3F800000#32
  have v33 : FVec Ideal S65536x1 .f32 := broadcastInDim S65536x1 ![] bcast_S_S65536x1 cst_16
  have v34 : FVec Ideal S65536x1 .f32 := mulf v33 u
  have v35 : FVec Ideal S65536x1 .f32 := Host.tanh v34
  have v36 : FVec Ideal S65536x1024 .f32 := broadcastInDim S65536x1024 ![0, 1] bcast_S65536x1_S65536x1024_0_1 v35
  have v37 : FVec Ideal S65536x1024 .f32 := mulf v36 v
  have cst_17 : FVec Ideal S_ .f32 := constant S_ .f32 0x3F800000#32
  have v38 : FVec Ideal S65536x1 .f32 := broadcastInDim S65536x1 ![] bcast_S_S65536x1 cst_17
  have v39 : FVec Ideal S65536x1 .f32 := mulf v38 u
  have v40 : FVec Ideal S65536x1024 .f32 := broadcastInDim S65536x1024 ![0, 1] bcast_S65536x1_S65536x1024_0_1 v39
  Host.divf v37 v40

/-- The norm column of `y` with an infinite or unordered entry replaced by zero. -/
def ynH' (y : FVec Ideal S65536x1024 .f32) : FVec Ideal S65536x1 .f32 :=
  have v42 : FVec Ideal S65536x1 .f32 := normH y
  have v43 : IVec S65536x1 1 := cmpf .une v42 v42
  have a0 : FVec Ideal S65536x1 .f32 := Host.absf v42
  have acst : FVec Ideal S_ .f32 := constant S_ .f32 0x7F800000#32
  have a1 : FVec Ideal S65536x1 .f32 := broadcastInDim S65536x1 ![] bcast_S_S65536x1 acst
  have v44 : IVec S65536x1 1 := cmpf .oeq a0 a1
  have v45 : IVec S65536x1 1 := ori v43 v44
  have cst_18 : FVec Ideal S_ .f32 := constant S_ .f32 0x00000000#32
  have b0 : FVec Ideal S_ .f32 := id cst_18
  have b1 : FVec Ideal S65536x1 .f32 := broadcastInDim S65536x1 ![] bcast_S_S65536x1 b0
  select v45 b1 v42

/-- The last step from the cleaned norm column `n'` and `y`: `y / max n' 1e-9` where `n' > 1`, else `y`. -/
def lastH' (n' : FVec Ideal S65536x1 .f32) (y : FVec Ideal S65536x1024 .f32) : FVec Ideal S65536x1024 .f32 :=
  have cst_19 : FVec Ideal S_ .f32 := constant S_ .f32 0x3089705F#32
  have v47 : FVec Ideal S65536x1 .f32 := broadcastInDim S65536x1 ![] bcast_S_S65536x1 cst_19
  have v48 : FVec Ideal S65536x1 .f32 := maximumf n' v47
  have cst_20 : FVec Ideal S_ .f32 := constant S_ .f32 0x3F800000#32
  have v49 : FVec Ideal S65536x1 .f32 := broadcastInDim S65536x1 ![] bcast_S_S65536x1 cst_20
  have v50 : IVec S65536x1 1 := cmpf .ogt n' v49
  have cst_21 : FVec Ideal S_ .f32 := constant S_ .f32 0x3F800000#32
  have v51 : FVec Ideal S65536x1 .f32 := broadcastInDim S65536x1 ![] bcast_S_S65536x1 cst_21
  have v52 : FVec Ideal S65536x1 .f32 := Host.divf v51 v48
  have v53 : FVec Ideal S65536x1024 .f32 := broadcastInDim S65536x1024 ![0, 1] bcast_S65536x1_S65536x1024_0_1 v52
  have v54 : FVec Ideal S65536x1024 .f32 := mulf y v53
  have m0 : IVec S65536x1024 1 := broadcastInDim S65536x1024 ![0, 1] bcast_S65536x1_S65536x1024_0_1 v50
  select m0 v54 y

/-- The tangent array of the argument. -/
def tH (x : FVec Ideal S65536x1024 .f32) : FVec Ideal S65536x1024 .f32 :=
  xtanH' (scaleH (pnormH (cleanH x))) (cleanH x)

/-- The clipped product of the tangent array with the weight `w`. -/
def vH (x : FVec Ideal S65536x1024 .f32) (w : FVec Ideal S1024x1024 .f32) : FVec Ideal S65536x1024 .f32 :=
  mxH (tH x) w

/-- The point before projection. -/
def yH (x : FVec Ideal S65536x1024 .f32) (w : FVec Ideal S1024x1024 .f32) : FVec Ideal S65536x1024 .f32 :=
  yH' (pnormH (vH x w)) (vH x w)

/-- The result from the argument `x` and the transposed stabilised weight `w`. -/
def out (x : FVec Ideal S65536x1024 .f32) (w : FVec Ideal S1024x1024 .f32) : FVec Ideal S65536x1024 .f32 :=
  lastH' (ynH' (yH x w)) (yH x w)

/-! ## The line in ten stretches -/

section Stretches
variable {F : FTy → Type} [FloatOps F]

/-- Operations 1 … 16 of @main's line. -/
def sA : List (HloOp τ sig (Elt F)) :=
  [ TRef.binary (.of main_arg1 : TRef sig ⟨S1024x1024, .f32⟩) (.of main_arg1 : TRef sig ⟨S1024x1024, .f32⟩) (.of main_call0_v0 : TRef sig ⟨S1024x1024, .f32⟩) mulf,
    TRef.nullary (.of main_call0_cst : TRef sig ⟨S_, .f32⟩) (constant S_ .f32 0x00000000#32),
    TRef.binary (.of main_call0_v0 : TRef sig ⟨S1024x1024, .f32⟩) (.of main_call0_cst : TRef sig ⟨S_, .f32⟩) (.of main_call0_v1 : TRef sig ⟨S1024, .f32⟩) (fun x v => Host.reduceAdd x v reducesTo_S1024x1024_S1024_d1 h_S_),
    TRef.unary (.of main_call0_v1 : TRef sig ⟨S1024, .f32⟩) (.of main_v0 : TRef sig ⟨S1024, .f32⟩) Host.sqrt,
    nullary main_cst (constant S_ .f32 0x322BCC77#32),
    unary main_cst main_v1 (broadcastInDim S1024 ![] bcast_S_S1024 : (⟨S_, .f32⟩ : BufTy).Contents (Elt F) → (⟨S1024, .f32⟩ : BufTy).Contents (Elt F)),
    binary main_v0 main_v1 main_v2 (cmpf .olt : (⟨S1024, .f32⟩ : BufTy).Contents (Elt F) → (⟨S1024, .f32⟩ : BufTy).Contents (Elt F) → (⟨S1024, .i1⟩ : BufTy).Contents (Elt F)),
    nullary main_cst_0 (constant S_ .f32 0x358637BD#32),
    nullary main_cst_1 (constant S_ .f32 0x00000000#32),
    TRef.unary (.of main_cst_0 : TRef sig ⟨S_, .f32⟩) (.of main_call1_v0 : TRef sig ⟨S1024, .f32⟩) (broadcastInDim S1024 ![] bcast_S_S1024),
    TRef.unary (.of main_cst_1 : TRef sig ⟨S_, .f32⟩) (.of main_call1_v1 : TRef sig ⟨S1024, .f32⟩) (broadcastInDim S1024 ![] bcast_S_S1024),
    TRef.ternary (.of main_v2 : TRef sig ⟨S1024, .i1⟩) (.of main_call1_v0 : TRef sig ⟨S1024, .f32⟩) (.of main_call1_v1 : TRef sig ⟨S1024, .f32⟩) (.of main_v3 : TRef sig ⟨S1024, .f32⟩) select,
    nullary main_c (constantI S_ 32 0#32),
    unary main_c main_v4 (broadcastInDim S1 ![] bcast_S_S1 : (⟨S_, .i32⟩ : BufTy).Contents (Elt F) → (⟨S1, .i32⟩ : BufTy).Contents (Elt F)),
    unary main_v3 main_v5 (id : (⟨S1024, .f32⟩ : BufTy).Contents (Elt F) → (⟨S1024, .f32⟩ : BufTy).Contents (Elt F)),
    ternary main_arg1 main_v4 main_v5 main_v6 ((fun x i u => Host.scatter scatter_S1024x1024_S1_S1024_0_1_1_0 FloatOps.addf x i u) : (⟨S1024x1024, .f32⟩ : BufTy).Contents (Elt F) → (⟨S1, .i32⟩ : BufTy).Contents (Elt F) → (⟨S1024, .f32⟩ : BufTy).Contents (Elt F) → (⟨S1024x1024, .f32⟩ : BufTy).Contents (Elt F)) ]

/-- Operations 17 … 33 of @main's line. -/
def sB : List (HloOp τ sig (Elt F)) :=
  [ nullary main_cst_2 (constant S_ .f32 0x00000000#32),
    TRef.binary (.of main_arg0 : TRef sig ⟨S65536x1024, .f32⟩) (.of main_arg0 : TRef sig ⟨S65536x1024, .f32⟩) (.of main_call2_v0 : TRef sig ⟨S65536x1024, .i1⟩) (cmpf .une),
    TRef.unary (.of main_cst_2 : TRef sig ⟨S_, .f32⟩) (.of main_call2_v1 : TRef sig ⟨S_, .f32⟩) id,
    TRef.unary (.of main_call2_v1 : TRef sig ⟨S_, .f32⟩) (.of main_call2_call0_v0 : TRef sig ⟨S65536x1024, .f32⟩) (broadcastInDim S65536x1024 ![] bcast_S_S65536x1024),
    TRef.ternary (.of main_call2_v0 : TRef sig ⟨S65536x1024, .i1⟩) (.of main_call2_call0_v0 : TRef sig ⟨S65536x1024, .f32⟩) (.of main_arg0 : TRef sig ⟨S65536x1024, .f32⟩) (.of main_call2_v2 : TRef sig ⟨S65536x1024, .f32⟩) select,
    TRef.nullary (.of main_call2_cst : TRef sig ⟨S_, .f32⟩) (constant S_ .f32 0x7F800000#32),
    TRef.unary (.of main_call2_cst : TRef sig ⟨S_, .f32⟩) (.of main_call2_v3 : TRef sig ⟨S65536x1024, .f32⟩) (broadcastInDim S65536x1024 ![] bcast_S_S65536x1024),
    TRef.binary (.of main_call2_v2 : TRef sig ⟨S65536x1024, .f32⟩) (.of main_call2_v3 : TRef sig ⟨S65536x1024, .f32⟩) (.of main_call2_v4 : TRef sig ⟨S65536x1024, .i1⟩) (cmpf .oeq),
    TRef.nullary (.of main_call2_cst_0 : TRef sig ⟨S_, .f32⟩) (constant S_ .f32 0x7F7FFFFF#32),
    TRef.unary (.of main_call2_cst_0 : TRef sig ⟨S_, .f32⟩) (.of main_call2_call1_v0 : TRef sig ⟨S65536x1024, .f32⟩) (broadcastInDim S65536x1024 ![] bcast_S_S65536x1024),
    TRef.ternary (.of main_call2_v4 : TRef sig ⟨S65536x1024, .i1⟩) (.of main_call2_call1_v0 : TRef sig ⟨S65536x1024, .f32⟩) (.of main_call2_v2 : TRef sig ⟨S65536x1024, .f32⟩) (.of main_call2_v5 : TRef sig ⟨S65536x1024, .f32⟩) select,
    TRef.nullary (.of main_call2_cst_1 : TRef sig ⟨S_, .f32⟩) (constant S_ .f32 0xFF800000#32),
    TRef.unary (.of main_call2_cst_1 : TRef sig ⟨S_, .f32⟩) (.of main_call2_v6 : TRef sig ⟨S65536x1024, .f32⟩) (broadcastInDim S65536x1024 ![] bcast_S_S65536x1024),
    TRef.binary (.of main_call2_v5 : TRef sig ⟨S65536x1024, .f32⟩) (.of main_call2_v6 : TRef sig ⟨S65536x1024, .f32⟩) (.of main_call2_v7 : TRef sig ⟨S65536x1024, .i1⟩) (cmpf .oeq),
    TRef.nullary (.of main_call2_cst_2 : TRef sig ⟨S_, .f32⟩) (constant S_ .f32 0xFF7FFFFF#32),
    TRef.unary (.of main_call2_cst_2 : TRef sig ⟨S_, .f32⟩) (.of main_call2_call2_v0 : TRef sig ⟨S65536x1024, .f32⟩) (broadcastInDim S65536x1024 ![] bcast_S_S65536x1024),
    TRef.ternary (.of main_call2_v7 : TRef sig ⟨S65536x1024, .i1⟩) (.of main_call2_call2_v0 : TRef sig ⟨S65536x1024, .f32⟩) (.of main_call2_v5 : TRef sig ⟨S65536x1024, .f32⟩) (.of main_v7 : TRef sig ⟨S65536x1024, .f32⟩) select ]

/-- Operations 34 … 41 of @main's line. -/
def sC1 : List (HloOp τ sig (Elt F)) :=
  [ TRef.binary (.of main_v7 : TRef sig ⟨S65536x1024, .f32⟩) (.of main_v7 : TRef sig ⟨S65536x1024, .f32⟩) (.of main_call3_v0 : TRef sig ⟨S65536x1024, .f32⟩) mulf,
    TRef.nullary (.of main_call3_cst : TRef sig ⟨S_, .f32⟩) (constant S_ .f32 0x00000000#32),
    TRef.binary (.of main_call3_v0 : TRef sig ⟨S65536x1024, .f32⟩) (.of main_call3_cst : TRef sig ⟨S_, .f32⟩) (.of main_call3_v1 : TRef sig ⟨S65536, .f32⟩) (fun x v => Host.reduceAdd x v reducesTo_S65536x1024_S65536_d1 h_S_),
    TRef.unary (.of main_call3_v1 : TRef sig ⟨S65536, .f32⟩) (.of main_call3_v2 : TRef sig ⟨S65536x1, .f32⟩) (broadcastInDim S65536x1 ![0] bcast_S65536_S65536x1_0),
    TRef.unary (.of main_call3_v2 : TRef sig ⟨S65536x1, .f32⟩) (.of main_v8 : TRef sig ⟨S65536x1, .f32⟩) Host.sqrt,
    nullary main_cst_3 (constant S_ .f32 0x26901D7D#32),
    unary main_cst_3 main_v9 (broadcastInDim S65536x1 ![] bcast_S_S65536x1 : (⟨S_, .f32⟩ : BufTy).Contents (Elt F) → (⟨S65536x1, .f32⟩ : BufTy).Contents (Elt F)),
    binary main_v8 main_v9 main_v10 (maximumf : (⟨S65536x1, .f32⟩ : BufTy).Contents (Elt F) → (⟨S65536x1, .f32⟩ : BufTy).Contents (Elt F) → (⟨S65536x1, .f32⟩ : BufTy).Contents (Elt F)) ]

/-- Operations 42 … 71 of @main's line. -/
def sC2 : List (HloOp τ sig (Elt F)) :=
  [ nullary main_cst_4 (constant S_ .f32 0x3F800000#32),
    unary main_cst_4 main_v11 (broadcastInDim S65536x1 ![] bcast_S_S65536x1 : (⟨S_, .f32⟩ : BufTy).Contents (Elt F) → (⟨S65536x1, .f32⟩ : BufTy).Contents (Elt F)),
    binary main_v11 main_v10 main_v12 (mulf : (⟨S65536x1, .f32⟩ : BufTy).Contents (Elt F) → (⟨S65536x1, .f32⟩ : BufTy).Contents (Elt F) → (⟨S65536x1, .f32⟩ : BufTy).Contents (Elt F)),
    nullary main_cst_5 (constant S_ .f32 0xBF7D70A4#32),
    nullary main_cst_6 (constant S_ .f32 0x3F7D70A4#32),
    TRef.unary (.of main_cst_5 : TRef sig ⟨S_, .f32⟩) (.of main_call4_v0 : TRef sig ⟨S_, .f32⟩) id,
    TRef.unary (.of main_call4_v0 : TRef sig ⟨S_, .f32⟩) (.of main_call4_v1 : TRef sig ⟨S65536x1, .f32⟩) (broadcastInDim S65536x1 ![] bcast_S_S65536x1),
    TRef.binary (.of main_call4_v1 : TRef sig ⟨S65536x1, .f32⟩) (.of main_v12 : TRef sig ⟨S65536x1, .f32⟩) (.of main_call4_v2 : TRef sig ⟨S65536x1, .f32⟩) maximumf,
    TRef.unary (.of main_cst_6 : TRef sig ⟨S_, .f32⟩) (.of main_call4_v3 : TRef sig ⟨S_, .f32⟩) id,
    TRef.unary (.of main_call4_v3 : TRef sig ⟨S_, .f32⟩) (.of main_call4_v4 : TRef sig ⟨S65536x1, .f32⟩) (broadcastInDim S65536x1 ![] bcast_S_S65536x1),
    TRef.binary (.of main_call4_v4 : TRef sig ⟨S65536x1, .f32⟩) (.of main_call4_v2 : TRef sig ⟨S65536x1, .f32⟩) (.of main_v13 : TRef sig ⟨S65536x1, .f32⟩) minimumf,
    nullary main_cst_7 (constant S_ .f32 0xBF7D70A2#32),
    nullary main_cst_8 (constant S_ .f32 0x3F7D70A2#32),
    TRef.unary (.of main_cst_7 : TRef sig ⟨S_, .f32⟩) (.of main_call5_v0 : TRef sig ⟨S_, .f32⟩) id,
    TRef.unary (.of main_call5_v0 : TRef sig ⟨S_, .f32⟩) (.of main_call5_v1 : TRef sig ⟨S65536x1, .f32⟩) (broadcastInDim S65536x1 ![] bcast_S_S65536x1),
    TRef.binary (.of main_call5_v1 : TRef sig ⟨S65536x1, .f32⟩) (.of main_v13 : TRef sig ⟨S65536x1, .f32⟩) (.of main_call5_v2 : TRef sig ⟨S65536x1, .f32⟩) maximumf,
    TRef.unary (.of main_cst_8 : TRef sig ⟨S_, .f32⟩) (.of main_call5_v3 : TRef sig ⟨S_, .f32⟩) id,
    TRef.unary (.of main_call5_v3 : TRef sig ⟨S_, .f32⟩) (.of main_call5_v4 : TRef sig ⟨S65536x1, .f32⟩) (broadcastInDim S65536x1 ![] bcast_S_S65536x1),
    TRef.binary (.of main_call5_v4 : TRef sig ⟨S65536x1, .f32⟩) (.of main_call5_v2 : TRef sig ⟨S65536x1, .f32⟩) (.of main_v14 : TRef sig ⟨S65536x1, .f32⟩) minimumf,
    unary main_v14 main_v15 (Host.log1p : (⟨S65536x1, .f32⟩ : BufTy).Contents (Elt F) → (⟨S65536x1, .f32⟩ : BufTy).Contents (Elt F)),
    unary main_v14 main_v16 (Host.negf : (⟨S65536x1, .f32⟩ : BufTy).Contents (Elt F) → (⟨S65536x1, .f32⟩ : BufTy).Contents (Elt F)),
    unary main_v16 main_v17 (Host.log1p : (⟨S65536x1, .f32⟩ : BufTy).Contents (Elt F) → (⟨S65536x1, .f32⟩ : BufTy).Contents (Elt F)),
    binary main_v15 main_v17 main_v18 (subf : (⟨S65536x1, .f32⟩ : BufTy).Contents (Elt F) → (⟨S65536x1, .f32⟩ : BufTy).Contents (Elt F) → (⟨S65536x1, .f32⟩ : BufTy).Contents (Elt F)),
    nullary main_cst_9 (constant S_ .f32 0x3F000000#32),
    unary main_cst_9 main_v19 (broadcastInDim S65536x1 ![] bcast_S_S65536x1 : (⟨S_, .f32⟩ : BufTy).Contents (Elt F) → (⟨S65536x1, .f32⟩ : BufTy).Contents (Elt F)),
    binary main_v19 main_v18 main_v20 (mulf : (⟨S65536x1, .f32⟩ : BufTy).Contents (Elt F) → (⟨S65536x1, .f32⟩ : BufTy).Contents (Elt F) → (⟨S65536x1, .f32⟩ : BufTy).Contents (Elt F)),
    nullary main_cst_10 (constant S_ .f32 0x3F800000#32),
    unary main_cst_10 main_v21 (broadcastInDim S65536x1 ![] bcast_S_S65536x1 : (⟨S_, .f32⟩ : BufTy).Contents (Elt F) → (⟨S65536x1, .f32⟩ : BufTy).Contents (Elt F)),
    binary main_v21 main_v20 main_v22 (mulf : (⟨S65536x1, .f32⟩ : BufTy).Contents (Elt F) → (⟨S65536x1, .f32⟩ : BufTy).Contents (Elt F) → (⟨S65536x1, .f32⟩ : BufTy).Contents (Elt F)),
    binary main_v22 main_v10 main_v23 (Host.divf : (⟨S65536x1, .f32⟩ : BufTy).Contents (Elt F) → (⟨S65536x1, .f32⟩ : BufTy).Contents (Elt F) → (⟨S65536x1, .f32⟩ : BufTy).Contents (Elt F)) ]

/-- Operations 72 … 81 of @main's line. -/
def sD : List (HloOp τ sig (Elt F)) :=
  [ unary main_v23 main_v24 (broadcastInDim S65536x1024 ![0, 1] bcast_S65536x1_S65536x1024_0_1 : (⟨S65536x1, .f32⟩ : BufTy).Contents (Elt F) → (⟨S65536x1024, .f32⟩ : BufTy).Contents (Elt F)),
    binary main_v24 main_v7 main_v25 (mulf : (⟨S65536x1024, .f32⟩ : BufTy).Contents (Elt F) → (⟨S65536x1024, .f32⟩ : BufTy).Contents (Elt F) → (⟨S65536x1024, .f32⟩ : BufTy).Contents (Elt F)),
    nullary main_cst_11 (constant S_ .f32 0xC2480000#32),
    nullary main_cst_12 (constant S_ .f32 0x42480000#32),
    TRef.unary (.of main_cst_11 : TRef sig ⟨S_, .f32⟩) (.of main_call6_v0 : TRef sig ⟨S_, .f32⟩) id,
    TRef.unary (.of main_call6_v0 : TRef sig ⟨S_, .f32⟩) (.of main_call6_v1 : TRef sig ⟨S65536x1024, .f32⟩) (broadcastInDim S65536x1024 ![] bcast_S_S65536x1024),
    TRef.binary (.of main_call6_v1 : TRef sig ⟨S65536x1024, .f32⟩) (.of main_v25 : TRef sig ⟨S65536x1024, .f32⟩) (.of main_call6_v2 : TRef sig ⟨S65536x1024, .f32⟩) maximumf,
    TRef.unary (.of main_cst_12 : TRef sig ⟨S_, .f32⟩) (.of main_call6_v3 : TRef sig ⟨S_, .f32⟩) id,
    TRef.unary (.of main_call6_v3 : TRef sig ⟨S_, .f32⟩) (.of main_call6_v4 : TRef sig ⟨S65536x1024, .f32⟩) (broadcastInDim S65536x1024 ![] bcast_S_S65536x1024),
    TRef.binary (.of main_call6_v4 : TRef sig ⟨S65536x1024, .f32⟩) (.of main_call6_v2 : TRef sig ⟨S65536x1024, .f32⟩) (.of main_v26 : TRef sig ⟨S65536x1024, .f32⟩) minimumf ]

/-- Operations 82 … 91 of @main's line. -/
def sE : List (HloOp τ sig (Elt F)) :=
  [ unary main_v6 main_v27 ((transpose S1024x1024 [1, 0] · transposes_S1024x1024_S1024x1024_1_0) : (⟨S1024x1024, .f32⟩ : BufTy).Contents (Elt F) → (⟨S1024x1024, .f32⟩ : BufTy).Contents (Elt F)),
    binary main_v26 main_v27 main_v28 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    nullary main_cst_13 (constant S_ .f32 0xC47A0000#32),
    nullary main_cst_14 (constant S_ .f32 0x447A0000#32),
    TRef.unary (.of main_cst_13 : TRef sig ⟨S_, .f32⟩) (.of main_call7_v0 : TRef sig ⟨S_, .f32⟩) id,
    TRef.unary (.of main_call7_v0 : TRef sig ⟨S_, .f32⟩) (.of main_call7_v1 : TRef sig ⟨S65536x1024, .f32⟩) (broadcastInDim S65536x1024 ![] bcast_S_S65536x1024),
    TRef.binary (.of main_call7_v1 : TRef sig ⟨S65536x1024, .f32⟩) (.of main_v28 : TRef sig ⟨S65536x1024, .f32⟩) (.of main_call7_v2 : TRef sig ⟨S65536x1024, .f32⟩) maximumf,
    TRef.unary (.of main_cst_14 : TRef sig ⟨S_, .f32⟩) (.of main_call7_v3 : TRef sig ⟨S_, .f32⟩) id,
    TRef.unary (.of main_call7_v3 : TRef sig ⟨S_, .f32⟩) (.of main_call7_v4 : TRef sig ⟨S65536x1024, .f32⟩) (broadcastInDim S65536x1024 ![] bcast_S_S65536x1024),
    TRef.binary (.of main_call7_v4 : TRef sig ⟨S65536x1024, .f32⟩) (.of main_call7_v2 : TRef sig ⟨S65536x1024, .f32⟩) (.of main_v29 : TRef sig ⟨S65536x1024, .f32⟩) minimumf ]

/-- Operations 92 … 99 of @main's line. -/
def sF : List (HloOp τ sig (Elt F)) :=
  [ TRef.binary (.of main_v29 : TRef sig ⟨S65536x1024, .f32⟩) (.of main_v29 : TRef sig ⟨S65536x1024, .f32⟩) (.of main_call8_v0 : TRef sig ⟨S65536x1024, .f32⟩) mulf,
    TRef.nullary (.of main_call8_cst : TRef sig ⟨S_, .f32⟩) (constant S_ .f32 0x00000000#32),
    TRef.binary (.of main_call8_v0 : TRef sig ⟨S65536x1024, .f32⟩) (.of main_call8_cst : TRef sig ⟨S_, .f32⟩) (.of main_call8_v1 : TRef sig ⟨S65536, .f32⟩) (fun x v => Host.reduceAdd x v reducesTo_S65536x1024_S65536_d1 h_S_),
    TRef.unary (.of main_call8_v1 : TRef sig ⟨S65536, .f32⟩) (.of main_call8_v2 : TRef sig ⟨S65536x1, .f32⟩) (broadcastInDim S65536x1 ![0] bcast_S65536_S65536x1_0),
    TRef.unary (.of main_call8_v2 : TRef sig ⟨S65536x1, .f32⟩) (.of main_v30 : TRef sig ⟨S65536x1, .f32⟩) Host.sqrt,
    nullary main_cst_15 (constant S_ .f32 0x26901D7D#32),
    unary main_cst_15 main_v31 (broadcastInDim S65536x1 ![] bcast_S_S65536x1 : (⟨S_, .f32⟩ : BufTy).Contents (Elt F) → (⟨S65536x1, .f32⟩ : BufTy).Contents (Elt F)),
    binary main_v30 main_v31 main_v32 (maximumf : (⟨S65536x1, .f32⟩ : BufTy).Contents (Elt F) → (⟨S65536x1, .f32⟩ : BufTy).Contents (Elt F) → (⟨S65536x1, .f32⟩ : BufTy).Contents (Elt F)) ]

/-- Operations 100 … 110 of @main's line. -/
def sG : List (HloOp τ sig (Elt F)) :=
  [ nullary main_cst_16 (constant S_ .f32 0x3F800000#32),
    unary main_cst_16 main_v33 (broadcastInDim S65536x1 ![] bcast_S_S65536x1 : (⟨S_, .f32⟩ : BufTy).Contents (Elt F) → (⟨S65536x1, .f32⟩ : BufTy).Contents (Elt F)),
    binary main_v33 main_v32 main_v34 (mulf : (⟨S65536x1, .f32⟩ : BufTy).Contents (Elt F) → (⟨S65536x1, .f32⟩ : BufTy).Contents (Elt F) → (⟨S65536x1, .f32⟩ : BufTy).Contents (Elt F)),
    unary main_v34 main_v35 (Host.tanh : (⟨S65536x1, .f32⟩ : BufTy).Contents (Elt F) → (⟨S65536x1, .f32⟩ : BufTy).Contents (Elt F)),
    unary main_v35 main_v36 (broadcastInDim S65536x1024 ![0, 1] bcast_S65536x1_S65536x1024_0_1 : (⟨S65536x1, .f32⟩ : BufTy).Contents (Elt F) → (⟨S65536x1024, .f32⟩ : BufTy).Contents (Elt F)),
    binary main_v36 main_v29 main_v37 (mulf : (⟨S65536x1024, .f32⟩ : BufTy).Contents (Elt F) → (⟨S65536x1024, .f32⟩ : BufTy).Contents (Elt F) → (⟨S65536x1024, .f32⟩ : BufTy).Contents (Elt F)),
    nullary main_cst_17 (constant S_ .f32 0x3F800000#32),
    unary main_cst_17 main_v38 (broadcastInDim S65536x1 ![] bcast_S_S65536x1 : (⟨S_, .f32⟩ : BufTy).Contents (Elt F) → (⟨S65536x1, .f32⟩ : BufTy).Contents (Elt F)),
    binary main_v38 main_v32 main_v39 (mulf : (⟨S65536x1, .f32⟩ : BufTy).Contents (Elt F) → (⟨S65536x1, .f32⟩ : BufTy).Contents (Elt F) → (⟨S65536x1, .f32⟩ : BufTy).Contents (Elt F)),
    unary main_v39 main_v40 (broadcastInDim S65536x1024 ![0, 1] bcast_S65536x1_S65536x1024_0_1 : (⟨S65536x1, .f32⟩ : BufTy).Contents (Elt F) → (⟨S65536x1024, .f32⟩ : BufTy).Contents (Elt F)),
    binary main_v37 main_v40 main_v41 (Host.divf : (⟨S65536x1024, .f32⟩ : BufTy).Contents (Elt F) → (⟨S65536x1024, .f32⟩ : BufTy).Contents (Elt F) → (⟨S65536x1024, .f32⟩ : BufTy).Contents (Elt F)) ]

/-- Operations 111 … 125 of @main's line. -/
def sH : List (HloOp τ sig (Elt F)) :=
  [ TRef.binary (.of main_v41 : TRef sig ⟨S65536x1024, .f32⟩) (.of main_v41 : TRef sig ⟨S65536x1024, .f32⟩) (.of main_call9_v0 : TRef sig ⟨S65536x1024, .f32⟩) mulf,
    TRef.nullary (.of main_call9_cst : TRef sig ⟨S_, .f32⟩) (constant S_ .f32 0x00000000#32),
    TRef.binary (.of main_call9_v0 : TRef sig ⟨S65536x1024, .f32⟩) (.of main_call9_cst : TRef sig ⟨S_, .f32⟩) (.of main_call9_v1 : TRef sig ⟨S65536, .f32⟩) (fun x v => Host.reduceAdd x v reducesTo_S65536x1024_S65536_d1 h_S_),
    TRef.unary (.of main_call9_v1 : TRef sig ⟨S65536, .f32⟩) (.of main_call9_v2 : TRef sig ⟨S65536x1, .f32⟩) (broadcastInDim S65536x1 ![0] bcast_S65536_S65536x1_0),
    TRef.unary (.of main_call9_v2 : TRef sig ⟨S65536x1, .f32⟩) (.of main_v42 : TRef sig ⟨S65536x1, .f32⟩) Host.sqrt,
    binary main_v42 main_v42 main_v43 (cmpf .une : (⟨S65536x1, .f32⟩ : BufTy).Contents (Elt F) → (⟨S65536x1, .f32⟩ : BufTy).Contents (Elt F) → (⟨S65536x1, .i1⟩ : BufTy).Contents (Elt F)),
    TRef.unary (.of main_v42 : TRef sig ⟨S65536x1, .f32⟩) (.of main_call10_v0 : TRef sig ⟨S65536x1, .f32⟩) Host.absf,
    TRef.nullary (.of main_call10_cst : TRef sig ⟨S_, .f32⟩) (constant S_ .f32 0x7F800000#32),
    TRef.unary (.of main_call10_cst : TRef sig ⟨S_, .f32⟩) (.of main_call10_v1 : TRef sig ⟨S65536x1, .f32⟩) (broadcastInDim S65536x1 ![] bcast_S_S65536x1),
    TRef.binary (.of main_call10_v0 : TRef sig ⟨S65536x1, .f32⟩) (.of main_call10_v1 : TRef sig ⟨S65536x1, .f32⟩) (.of main_v44 : TRef sig ⟨S65536x1, .i1⟩) (cmpf .oeq),
    binary main_v43 main_v44 main_v45 (ori : (⟨S65536x1, .i1⟩ : BufTy).Contents (Elt F) → (⟨S65536x1, .i1⟩ : BufTy).Contents (Elt F) → (⟨S65536x1, .i1⟩ : BufTy).Contents (Elt F)),
    nullary main_cst_18 (constant S_ .f32 0x00000000#32),
    TRef.unary (.of main_cst_18 : TRef sig ⟨S_, .f32⟩) (.of main_call11_v0 : TRef sig ⟨S_, .f32⟩) id,
    TRef.unary (.of main_call11_v0 : TRef sig ⟨S_, .f32⟩) (.of main_call11_v1 : TRef sig ⟨S65536x1, .f32⟩) (broadcastInDim S65536x1 ![] bcast_S_S65536x1),
    TRef.ternary (.of main_v45 : TRef sig ⟨S65536x1, .i1⟩) (.of main_call11_v1 : TRef sig ⟨S65536x1, .f32⟩) (.of main_v42 : TRef sig ⟨S65536x1, .f32⟩) (.of main_v46 : TRef sig ⟨S65536x1, .f32⟩) select ]

/-- Operations 126 … 138 of @main's line. -/
def sI : List (HloOp τ sig (Elt F)) :=
  [ nullary main_cst_19 (constant S_ .f32 0x3089705F#32),
    unary main_cst_19 main_v47 (broadcastInDim S65536x1 ![] bcast_S_S65536x1 : (⟨S_, .f32⟩ : BufTy).Contents (Elt F) → (⟨S65536x1, .f32⟩ : BufTy).Contents (Elt F)),
    binary main_v46 main_v47 main_v48 (maximumf : (⟨S65536x1, .f32⟩ : BufTy).Contents (Elt F) → (⟨S65536x1, .f32⟩ : BufTy).Contents (Elt F) → (⟨S65536x1, .f32⟩ : BufTy).Contents (Elt F)),
    nullary main_cst_20 (constant S_ .f32 0x3F800000#32),
    unary main_cst_20 main_v49 (broadcastInDim S65536x1 ![] bcast_S_S65536x1 : (⟨S_, .f32⟩ : BufTy).Contents (Elt F) → (⟨S65536x1, .f32⟩ : BufTy).Contents (Elt F)),
    binary main_v46 main_v49 main_v50 (cmpf .ogt : (⟨S65536x1, .f32⟩ : BufTy).Contents (Elt F) → (⟨S65536x1, .f32⟩ : BufTy).Contents (Elt F) → (⟨S65536x1, .i1⟩ : BufTy).Contents (Elt F)),
    nullary main_cst_21 (constant S_ .f32 0x3F800000#32),
    unary main_cst_21 main_v51 (broadcastInDim S65536x1 ![] bcast_S_S65536x1 : (⟨S_, .f32⟩ : BufTy).Contents (Elt F) → (⟨S65536x1, .f32⟩ : BufTy).Contents (Elt F)),
    binary main_v51 main_v48 main_v52 (Host.divf : (⟨S65536x1, .f32⟩ : BufTy).Contents (Elt F) → (⟨S65536x1, .f32⟩ : BufTy).Contents (Elt F) → (⟨S65536x1, .f32⟩ : BufTy).Contents (Elt F)),
    unary main_v52 main_v53 (broadcastInDim S65536x1024 ![0, 1] bcast_S65536x1_S65536x1024_0_1 : (⟨S65536x1, .f32⟩ : BufTy).Contents (Elt F) → (⟨S65536x1024, .f32⟩ : BufTy).Contents (Elt F)),
    binary main_v41 main_v53 main_v54 (mulf : (⟨S65536x1024, .f32⟩ : BufTy).Contents (Elt F) → (⟨S65536x1024, .f32⟩ : BufTy).Contents (Elt F) → (⟨S65536x1024, .f32⟩ : BufTy).Contents (Elt F)),
    TRef.unary (.of main_v50 : TRef sig ⟨S65536x1, .i1⟩) (.of main_call12_v0 : TRef sig ⟨S65536x1024, .i1⟩) (broadcastInDim S65536x1024 ![0, 1] bcast_S65536x1_S65536x1024_0_1),
    TRef.ternary (.of main_call12_v0 : TRef sig ⟨S65536x1024, .i1⟩) (.of main_v54 : TRef sig ⟨S65536x1024, .f32⟩) (.of main_v41 : TRef sig ⟨S65536x1024, .f32⟩) (.of main_v55 : TRef sig ⟨S65536x1024, .f32⟩) select ]

/-- The line is the stretches one after the other. -/
theorem ops_split : (ops : List (HloOp τ sig (Elt F)))
    = sA ++ (sB ++ (sC1 ++ (sC2 ++ (sD ++ (sE ++ (sF ++ (sG ++ (sH ++ sI)))))))) := rfl

end Stretches

/-- The fold over two lists one after the other is the fold over the second from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## Each stretch at its result, and at the buffers it leaves alone -/

set_option maxRecDepth 16384

theorem sA_v6 (V : Valuation τ sig (Elt Ideal)) :
    after sA V (main_v6 : DevRef τ sig) = mfixH (V (main_arg1 : DevRef τ sig)) := by
  unfold sA
  after_results_simp
  rfl

theorem sA_arg0 (V : Valuation τ sig (Elt Ideal)) :
    after sA V (main_arg0 : DevRef τ sig) = V (main_arg0 : DevRef τ sig) := by
  unfold sA
  after_results_simp

theorem sB_v7 (V : Valuation τ sig (Elt Ideal)) :
    after sB V (main_v7 : DevRef τ sig) = cleanH (V (main_arg0 : DevRef τ sig)) := by
  unfold sB
  after_results_simp
  rfl

theorem sB_v6 (V : Valuation τ sig (Elt Ideal)) :
    after sB V (main_v6 : DevRef τ sig) = V (main_v6 : DevRef τ sig) := by
  unfold sB
  after_results_simp

theorem sC1_v10 (V : Valuation τ sig (Elt Ideal)) :
    after sC1 V (main_v10 : DevRef τ sig) = pnormH (V (main_v7 : DevRef τ sig)) := by
  unfold sC1
  after_results_simp
  rfl

theorem sC1_v7 (V : Valuation τ sig (Elt Ideal)) :
    after sC1 V (main_v7 : DevRef τ sig) = V (main_v7 : DevRef τ sig) := by
  unfold sC1
  after_results_simp

theorem sC1_v6 (V : Valuation τ sig (Elt Ideal)) :
    after sC1 V (main_v6 : DevRef τ sig) = V (main_v6 : DevRef τ sig) := by
  unfold sC1
  after_results_simp

theorem sC2_v23 (V : Valuation τ sig (Elt Ideal)) :
    after sC2 V (main_v23 : DevRef τ sig) = scaleH (V (main_v10 : DevRef τ sig)) := by
  unfold sC2
  after_results_simp
  rfl

theorem sC2_v7 (V : Valuation τ sig (Elt Ideal)) :
    after sC2 V (main_v7 : DevRef τ sig) = V (main_v7 : DevRef τ sig) := by
  unfold sC2
  after_results_simp

theorem sC2_v6 (V : Valuation τ sig (Elt Ideal)) :
    after sC2 V (main_v6 : DevRef τ sig) = V (main_v6 : DevRef τ sig) := by
  unfold sC2
  after_results_simp

theorem sD_v26 (V : Valuation τ sig (Elt Ideal)) :
    after sD V (main_v26 : DevRef τ sig) = xtanH' (V (main_v23 : DevRef τ sig)) (V (main_v7 : DevRef τ sig)) := by
  unfold sD
  after_results_simp
  rfl

theorem sD_v6 (V : Valuation τ sig (Elt Ideal)) :
    after sD V (main_v6 : DevRef τ sig) = V (main_v6 : DevRef τ sig) := by
  unfold sD
  after_results_simp

theorem sE_v29 (V : Valuation τ sig (Elt Ideal)) :
    after sE V (main_v29 : DevRef τ sig) = mxH (V (main_v26 : DevRef τ sig)) (transpose S1024x1024 [1, 0] (V (main_v6 : DevRef τ sig)) transposes_S1024x1024_S1024x1024_1_0) := by
  unfold sE
  after_results_simp
  rfl

theorem sF_v32 (V : Valuation τ sig (Elt Ideal)) :
    after sF V (main_v32 : DevRef τ sig) = pnormH (V (main_v29 : DevRef τ sig)) := by
  unfold sF
  after_results_simp
  rfl

theorem sF_v29 (V : Valuation τ sig (Elt Ideal)) :
    after sF V (main_v29 : DevRef τ sig) = V (main_v29 : DevRef τ sig) := by
  unfold sF
  after_results_simp

theorem sG_v41 (V : Valuation τ sig (Elt Ideal)) :
    after sG V (main_v41 : DevRef τ sig) = yH' (V (main_v32 : DevRef τ sig)) (V (main_v29 : DevRef τ sig)) := by
  unfold sG
  after_results_simp
  rfl

theorem sH_v46 (V : Valuation τ sig (Elt Ideal)) :
    after sH V (main_v46 : DevRef τ sig) = ynH' (V (main_v41 : DevRef τ sig)) := by
  unfold sH
  after_results_simp
  rfl

theorem sH_v41 (V : Valuation τ sig (Elt Ideal)) :
    after sH V (main_v41 : DevRef τ sig) = V (main_v41 : DevRef τ sig) := by
  unfold sH
  after_results_simp

theorem sI_v55 (V : Valuation τ sig (Elt Ideal)) :
    after sI V (main_v55 : DevRef τ sig) = lastH' (V (main_v46 : DevRef τ sig)) (V (main_v41 : DevRef τ sig)) := by
  unfold sI
  after_results_simp
  rfl

/-! ## The whole line -/

/-- The fold of the line at the result buffer is `out` of the argument and of the transposed stabilised weight. -/
theorem term_eq (V : Valuation τ sig (Elt Ideal)) :
    after ops V (main_v55 : DevRef τ sig) = out (V (main_arg0 : DevRef τ sig)) (wH (V (main_arg1 : DevRef τ sig))) := by
  rw [ops_split]
  simp only [after_append]
  rw [sI_v55, sH_v46, sH_v41, sG_v41, sF_v32, sF_v29, sE_v29, sD_v26, sD_v6, sC2_v23, sC2_v7, sC2_v6,
    sC1_v10, sC1_v7, sC1_v6, sB_v7, sB_v6, sA_v6, sA_arg0]
  rfl

/-- No operation writes an argument buffer. -/
theorem arg0_eq (V : Valuation τ sig (Elt Ideal)) :
    after ops V (main_arg0 : DevRef τ sig) = V (main_arg0 : DevRef τ sig) := by
  after_results_simp

theorem arg1_eq (V : Valuation τ sig (Elt Ideal)) :
    after ops V (main_arg1 : DevRef τ sig) = V (main_arg1 : DevRef τ sig) := by
  after_results_simp

/-- At the compiled mesh, on the extended reals, from any memory with zero counters: every weakly fair execution of
    @main terminates with the result buffer at `out` of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = out (m ((c.tc : Thread nD τ).loc main_arg0)) (wH (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v55).trans (term_eq (launchContents m c)),
      (h c main_arg0).trans (arg0_eq (launchContents m c)),
      (h c main_arg1).trans (arg1_eq (launchContents m c))⟩)
    (run_main m ρ)

end Cert.ReferenceIdeal.RefValue

end
-- ==== Proof.WeightsEq.lean ====
/-
  The weights are one array. Both programs stabilise the rows of `m` by the same operations (row norms, comparison
  with 1e-8, 1e-6 added to column 0 of the small rows) and transpose the result; the kernel then changes the float
  format, which is the identity on the extended reals. So the array the kernel's region finds in its weight window
  is, entry by entry, the reference's transposed weight array.
-/
import proofs.«108034_j15393162789091_2_alg».proof.Proof.KernelW
import proofs.«108034_j15393162789091_2_alg».proof.Proof.RefValueDefs
import Idealize.ShloMosaic.Lib.ValueIdx

noncomputable section

namespace Cert.Bridge

open Idealize.ShloMosaic Idealize.ShloMosaic.ValueIdx Idealize.ShloMosaic.TcCoe Idealize.SL.Sem

/-- Both programs stabilise the weights' rows by the same operations on the same array. -/
theorem mfix_eq (a : FVec Ideal Cert.KernelIdeal.S1024x1024 .f32) :
    Cert.ReferenceIdeal.RefValue.mfixH a = Cert.KernelIdeal.W.mfixK a := rfl

/-- The weights as the kernel's region finds them are the reference's transposed weights, entry by entry. -/
theorem w_eq (m : (ℓ : Loc Cert.KernelIdeal.nD Cert.KernelIdeal.τ Cert.KernelIdeal.sig) → Buf (Elt Ideal) ℓ)
    (c : Dev Cert.KernelIdeal.nD) (k q' : Fin 1024) :
    Cert.ReferenceIdeal.RefValue.wH (m ((c : Thread Cert.KernelIdeal.nD Cert.KernelIdeal.τ).loc Cert.KernelIdeal.main_arg1)) (ix2 k q')
      = Cert.KernelIdeal.Gen.V m c Cert.KernelIdeal.main_v8 (ix2 k q') := by
  refine Eq.trans ?_ (congrFun (Cert.KernelIdeal.W.V_main_v8 m c) (ix2 k q')).symm
  unfold Cert.ReferenceIdeal.RefValue.wH
  rw [mfix_eq]
  rfl

end Cert.Bridge

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.RefValue.lean ====
/-
  The reference's value, read at an entry.

  Every array of the program is either entry-wise in the arrays before it, or a row sum kept as a column, or a
  column spread back over the rows, or the matrix product. So entry (i, q) of the result depends on row i of the
  argument and on the weight only, and is the reference's row function of the specification at that row.
-/
import proofs.«108034_j15393162789091_2_alg».proof.Proof.RefValueDefs
import proofs.«108034_j15393162789091_2_alg».proof.Proof.LibDotsNT
import proofs.«108034_j15393162789091_2_alg».proof.Proof.LibKeepdims

noncomputable section

open scoped BigOperators

namespace Cert.ReferenceIdeal.RefValue

open Cert.ReferenceIdeal Cert.ReferenceIdeal.Gen Cert.Mobius Idealize.ShloMosaic Idealize.ShloMosaic.ValueIdx

/-! ## Layout and reduction steps read at an entry -/

section Steps

variable {α : Type}

/-- A vector kept as a column reads, at (p, u), the vector at p. -/
theorem bcast_vec_col_apply {a : ℕ} (h : (⟨1, ![a]⟩ : Shape).BroadcastsInDim ⟨2, ![a, 1]⟩ (![0] : Fin 1 → Fin 2))
    (v : (⟨1, ![a]⟩ : Shape).Idx → α) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column spread over the rows reads, at (p, q), the column's entry of row p. -/
theorem bcast_col_apply {a b : ℕ} (h : (⟨2, ![a, 1]⟩ : Shape).BroadcastsInDim ⟨2, ![a, b]⟩ (![0, 1] : Fin 2 → Fin 2))
    (v : (⟨2, ![a, 1]⟩ : Shape).Idx → α) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ => rfl

/-- The host's row sums from the zero scalar, read at row p, are the sum of that row's entries. -/
theorem hostRowSum_apply {m n : ℕ} (y : FVec Ideal ⟨2, ![m, n]⟩ .f32)
    (h' : (⟨2, ![m, n]⟩ : Shape).ReducesTo [1] (⟨1, ![m]⟩ : Shape)) (h : (⟨2, ![m, n]⟩ : Shape).Reduces [1] (⟨1, ![m]⟩ : Shape))
    (hu : 0 < (⟨0, ![]⟩ : Shape).numel) (p : Fin m) :
    Host.reduceAdd y (constant (⟨0, ![]⟩ : Shape) .f32 0x00000000#32) h' hu (ix1 p) = ∑ k : Fin n, y (ix2 p k) := by
  rw [hostReduceAdd_apply, Ideal.hostReduceAdd_single h' h]
  show Ideal.ofBits .f32 0x00000000#32 + _ = _
  rw [Ideal.ofBits_zero_f32, zero_add]
  exact Finset.sum_congr rfl fun k _ => congrArg y (Cert.LibKeepdims.lift_cols h p k)

end Steps

/-! ## Entry-wise host operations, and a scalar constant spread over a shape, read at an index -/

theorem hostSqrt_apply {s : Shape} (v : FVec Ideal s .f32) (i : s.Idx) : Host.sqrt v i = Ideal.sqrt (v i) := rfl
theorem hostTanh_apply {s : Shape} (v : FVec Ideal s .f32) (i : s.Idx) : Host.tanh v i = Ideal.tanh (v i) := rfl
theorem hostAbsf_apply {s : Shape} (v : FVec Ideal s .f32) (i : s.Idx) : Host.absf v i = max (v i) (-(v i)) := rfl
theorem ori_apply {s : Shape} (a b : IVec s 1) (i : s.Idx) : ori a b i = a i ||| b i := rfl

/-- A scalar f32 constant spread over any shape reads the constant everywhere. -/
theorem bcastS_apply {T : Shape} (h : S_.BroadcastsInDim T (![] : Fin 0 → Fin T.rank)) (w : BitVec 32) (j : T.Idx) :
    broadcastInDim T ![] h (constant (F := Ideal) S_ .f32 w) j = c w := by
  rw [broadcastInDim_scalar_apply]
  rfl

/-! ## The arrays read at an entry -/

theorem cleanH_at (x : FVec Ideal S65536x1024 .f32) (i : S65536x1024.Idx) : cleanH x i = clean (x i) := rfl

theorem normH_at (y : FVec Ideal S65536x1024 .f32) (p : Fin 65536) :
    normH y (ix2 p (0 : Fin 1)) = Ideal.sqrt (∑ k : Fin 1024, y (ix2 p k) * y (ix2 p k)) := by
  have hR : S65536x1024.Reduces [1] S65536 := by decide
  simp only [normH, hostSqrt_apply]
  rw [bcast_vec_col_apply, hostRowSum_apply (mulf y y) reducesTo_S65536x1024_S65536_d1 hR h_S_ p]
  simp only [mulf_apply]

theorem pnormH_at (y : FVec Ideal S65536x1024 .f32) (p : Fin 65536) :
    pnormH y (ix2 p (0 : Fin 1)) = max (Ideal.sqrt (∑ k : Fin 1024, y (ix2 p k) * y (ix2 p k))) (c 0x26901D7D#32) := by
  simp only [pnormH, maximumf_apply, normH_at]
  rw [bcastS_apply]

theorem scaleH_at (u : FVec Ideal S65536x1 .f32) (i : S65536x1.Idx) : scaleH u i =
    (let z := min (c 0x3F7D70A2#32) (max (c 0xBF7D70A2#32) (min (c 0x3F7D70A4#32) (max (c 0xBF7D70A4#32) (c 0x3F800000#32 * u i))))
     Ideal.div (c 0x3F800000#32 * (c 0x3F000000#32 * (Ideal.log1p z - Ideal.log1p (-z)))) (u i)) := rfl

theorem xtanH'_at (s : FVec Ideal S65536x1 .f32) (xc : FVec Ideal S65536x1024 .f32) (p : Fin 65536) (q : Fin 1024) :
    xtanH' s xc (ix2 p q) = min (c 0x42480000#32) (max (c 0xC2480000#32) (s (ix2 p (0 : Fin 1)) * xc (ix2 p q))) := by
  simp only [xtanH', clipX, minimumf_apply, maximumf_apply, mulf_apply, id_eq]
  rw [bcast_col_apply, bcastS_apply, bcastS_apply]

theorem mxH_at (t : FVec Ideal S65536x1024 .f32) (w : FVec Ideal S1024x1024 .f32) (p : Fin 65536) (q : Fin 1024) :
    mxH t w (ix2 p q) = min (c 0x447A0000#32) (max (c 0xC47A0000#32) (∑ k : Fin 1024, t (ix2 p k) * w (ix2 k q))) := by
  simp only [mxH, clipX, minimumf_apply, maximumf_apply, id_eq, Host.dotGeneral]
  rw [Cert.LibDotsNT.plain_dotGeneral_apply dot_S65536x1024_S1024x1024_S65536x1024_1_0_0_1_n_n rfl rfl rfl rfl rfl rfl,
    bcastS_apply, bcastS_apply]

theorem yH'_at (u : FVec Ideal S65536x1 .f32) (v : FVec Ideal S65536x1024 .f32) (p : Fin 65536) (q : Fin 1024) :
    yH' u v (ix2 p q)
      = Ideal.div (Ideal.tanh (c 0x3F800000#32 * u (ix2 p (0 : Fin 1))) * v (ix2 p q)) (c 0x3F800000#32 * u (ix2 p (0 : Fin 1))) := by
  simp only [yH', hostDivf_apply, mulf_apply]
  rw [bcast_col_apply, bcast_col_apply]
  simp only [hostTanh_apply, mulf_apply]
  rw [bcastS_apply]

theorem ynH'_at (y : FVec Ideal S65536x1024 .f32) (i : S65536x1.Idx) : ynH' y i =
    Scalar.select (Ideal.cmp .une (normH y i) (normH y i) ||| Ideal.cmp .oeq (max (normH y i) (-(normH y i))) (c 0x7F800000#32))
      (c 0x00000000#32) (normH y i) := by
  simp only [ynH', select_apply, ori_apply, cmpf_apply, hostAbsf_apply, id_eq]
  generalize normH y i = n
  rfl

theorem lastH'_at (n' : FVec Ideal S65536x1 .f32) (y : FVec Ideal S65536x1024 .f32) (p : Fin 65536) (q : Fin 1024) :
    lastH' n' y (ix2 p q)
      = Scalar.select (Ideal.cmp .ogt (n' (ix2 p (0 : Fin 1))) (c 0x3F800000#32))
          (y (ix2 p q) * Ideal.div (c 0x3F800000#32) (max (n' (ix2 p (0 : Fin 1))) (c 0x3089705F#32))) (y (ix2 p q)) := by
  simp only [lastH', select_apply, mulf_apply]
  rw [bcast_col_apply, bcast_col_apply]
  simp only [cmpf_apply, hostDivf_apply, maximumf_apply]
  rw [bcastS_apply, bcastS_apply]
  rfl

/-! ## The result at an entry -/

/-- Entry (i, k) of the tangent array is the specification's tangent vector of row i. -/
theorem tH_at (x : FVec Ideal S65536x1024 .f32) (i : Fin 65536) (k : Fin 1024) :
    tH x (ix2 i k) = xtan (fun k' => x (ix2 i k')) k := by
  unfold tH
  rw [xtanH'_at, scaleH_at, pnormH_at]
  simp only [cleanH_at]
  unfold xtan scale pnorm
  simp only [Ideal.ofBits_zero_f32, zero_sub]

/-- Entry (i, q) of the clipped product is the specification's, of row i and the weight. -/
theorem vH_at (x : FVec Ideal S65536x1024 .f32) (w : FVec Ideal S1024x1024 .f32) (i : Fin 65536) (q : Fin 1024) :
    vH x w (ix2 i q) = mxr (fun k q' => w (ix2 k q')) (fun k => x (ix2 i k)) q := by
  unfold vH
  rw [mxH_at]
  unfold mxr
  simp only [tH_at]

/-- Entry (i, q) of the point before projection. -/
theorem yH_at (x : FVec Ideal S65536x1024 .f32) (w : FVec Ideal S1024x1024 .f32) (i : Fin 65536) (q : Fin 1024) :
    yH x w (ix2 i q) = yrow (mxr (fun k q' => w (ix2 k q')) (fun k => x (ix2 i k))) q := by
  unfold yH
  rw [yH'_at, pnormH_at]
  simp only [vH_at]
  rfl

/-- Row i of the cleaned norm column. -/
theorem ynH_at (x : FVec Ideal S65536x1024 .f32) (w : FVec Ideal S1024x1024 .f32) (i : Fin 65536) :
    ynH' (yH x w) (ix2 i (0 : Fin 1)) = ynorm' (mxr (fun k q' => w (ix2 k q')) (fun k => x (ix2 i k))) := by
  rw [ynH'_at, normH_at]
  simp only [yH_at]
  rfl

/-- ENTRY (i, q) OF THE RESULT is the reference's row function of row i of the argument and the weight. -/
theorem out_at (x : FVec Ideal S65536x1024 .f32) (w : FVec Ideal S1024x1024 .f32) (i : Fin 65536) (q : Fin 1024) :
    out x w (ix2 i q) = Cert.Mobius.rowR (fun k q' => w (ix2 k q')) (fun k => x (ix2 i k)) q := by
  unfold out
  rw [lastH'_at, ynH_at, yH_at]
  rfl

end Cert.ReferenceIdeal.RefValue

end
-- ==== Proof.Math.lean ====
/-
  The two last steps agree on a row of real numbers.

  A clipped entry `min 1000 (max (-1000) d)` is a real whatever the extended real `d` is (`clip_real`). For a row `v` of
  reals `a k`, put `s = Σ a²`, `u = max (√s) ε` with `ε > 0`, and `t = tanh u`. Then `u` is a positive real with `s ≤ u²`, and
  `t < 1`. On the one side `t > 1` fails, the second factor is one, and the result is `a q · (t / u)`. On the other side
  `y k = t · a k / u` is real, `Σ y² = (t / u)² · s ≤ t² < 1`, so the norm of `y` is a real below one: it is neither unordered
  nor infinite, and `y` is not rescaled; the result is `t · a q / u`. The two reals are equal (`tail_eq`, `row_eq`).
-/
import proofs.«108034_j15393162789091_2_alg».proof.Proof.Spec
import Idealize.ShloMosaic.Lib.ValueIdx
import Idealize.ShloMosaic.Lib.IdealHost

noncomputable section

namespace Cert.Mobius

open Idealize.ShloMosaic

/-! ## The values of the literal words -/

/-- The word `0x3F800000` is one. -/
theorem c_one : c 0x3F800000#32 = 1 := Ideal.ofBits_one_f32

/-- The word `0x00000000` is zero. -/
theorem c_zero : c 0x00000000#32 = 0 := Ideal.ofBits_zero_f32

/-- The word `0x7F800000` is `+∞`. -/
theorem c_top : c 0x7F800000#32 = ⊤ := by simp [c, Ideal.ofBits, Ideal.ieee]

/-- The word `0x26901D7D` (about `1e-15`) is a positive real: `(2^23 + 1056125) · 2^(77 - 127 - 23)`. -/
theorem c_eps : ∃ e : ℝ, 0 < e ∧ c 0x26901D7D#32 = (e : EReal) := by
  refine ⟨(1 * ((2 ^ 23 + 1056125 : Nat) : ℝ) * (2 : ℝ) ^ ((77 : Int) - (2 ^ (8 - 1) - 1) - 23) : ℝ), by positivity, ?_⟩
  simp [c, Ideal.ofBits, Ideal.ieee, -EReal.coe_mul]

/-- The word `0x447A0000` (one thousand) is a real: `(2^23 + 7995392) · 2^(136 - 127 - 23)`. -/
theorem c_hi : ∃ r : ℝ, c 0x447A0000#32 = (r : EReal) := by
  refine ⟨(1 * ((2 ^ 23 + 7995392 : Nat) : ℝ) * (2 : ℝ) ^ ((136 : Int) - (2 ^ (8 - 1) - 1) - 23) : ℝ), ?_⟩
  simp [c, Ideal.ofBits, Ideal.ieee, -EReal.coe_mul]

/-- The word `0xC47A0000` (minus one thousand) is a real. -/
theorem c_lo : ∃ r : ℝ, c 0xC47A0000#32 = (r : EReal) := by
  refine ⟨(-1 * ((2 ^ 23 + 7995392 : Nat) : ℝ) * (2 : ℝ) ^ ((136 : Int) - (2 ^ (8 - 1) - 1) - 23) : ℝ), ?_⟩
  simp [c, Ideal.ofBits, Ideal.ieee, -EReal.coe_mul, -EReal.coe_neg]

/-! ## Reals inside the extended reals -/

/-- The larger of two reals, taken among the extended reals, is the real maximum. -/
theorem coe_max_coe (x y : ℝ) : max (x : EReal) (y : EReal) = ((max x y : ℝ) : EReal) :=
  (EReal.coe_strictMono.monotone.map_max).symm

/-- The smaller of two reals, taken among the extended reals, is the real minimum. -/
theorem coe_min_coe (x y : ℝ) : min (x : EReal) (y : EReal) = ((min x y : ℝ) : EReal) :=
  (EReal.coe_strictMono.monotone.map_min).symm

/-- Clipping any extended real between two reals gives a real. -/
theorem clip_coe (a b : ℝ) (d : EReal) : ∃ r : ℝ, min (a : EReal) (max (b : EReal) d) = (r : EReal) := by
  induction d using EReal.rec with
  | bot => exact ⟨min a b, by rw [max_bot_right, coe_min_coe]⟩
  | coe x => exact ⟨min a (max b x), by rw [coe_max_coe, coe_min_coe]⟩
  | top => exact ⟨a, by rw [max_top_right, min_top_right]⟩

/-- A clipped entry is a real number. -/
theorem clip_real (d : EReal) : ∃ r : ℝ, min (c 0x447A0000#32) (max (c 0xC47A0000#32) d) = (r : EReal) := by
  obtain ⟨a, ha⟩ := c_hi
  obtain ⟨b, hb⟩ := c_lo
  rw [ha, hb]
  exact clip_coe a b d

/-- A finite sum of reals, taken among the extended reals, is the real sum. -/
theorem coe_sum_coe {ι : Type} (s : Finset ι) (f : ι → ℝ) :
    (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

/-- The sum of the squares of a real row is the real sum of squares. -/
theorem sum_sq_coe (a : Fin n → ℝ) :
    (∑ k, (a k : EReal) * (a k : EReal)) = ((∑ k, a k * a k : ℝ) : EReal) := by
  rw [← coe_sum_coe]
  exact Finset.sum_congr rfl (fun k _ => (EReal.coe_mul _ _).symm)

/-- The square root of a real that is not negative. -/
theorem sqrt_coe_nonneg {s : ℝ} (hs : 0 ≤ s) : Ideal.sqrt (s : EReal) = (Real.sqrt s : EReal) := by
  rw [Ideal.sqrt_coe, if_neg (not_lt.mpr hs)]

/-- A comparison `x > y` that fails is the zero bit. -/
theorem cmp_ogt_of_not_lt {x y : EReal} (h : ¬ y < x) : Ideal.cmp .ogt x y = 0#1 := by
  simp [Ideal.cmp, h]

/-- The sum of the squares of a row whose entries are reals is the real sum of squares. -/
theorem sum_sq_real (w : Fin n → EReal) (b : Fin n → ℝ) (hw : ∀ k, w k = (b k : EReal)) :
    (∑ k, w k * w k) = ((∑ k, b k * b k : ℝ) : EReal) := by
  rw [← sum_sq_coe]
  exact Finset.sum_congr rfl (fun k _ => by rw [hw k])

/-! ## The last step on a row of reals

Throughout, `v k = a k` with `a k` real, `s = Σ a²`, `u = max (√s) ε` and `t = tanh u`. -/

/-- The bounded norm of a real row is a positive real `u` with `Σ a² ≤ u²`. -/
theorem unorm_coe (v : Fin n → EReal) (a : Fin n → ℝ) (hv : ∀ k, v k = (a k : EReal)) :
    ∃ u : ℝ, 0 < u ∧ (∑ k, a k * a k) ≤ u * u ∧ unorm v = (u : EReal) := by
  obtain ⟨e, he, hce⟩ := c_eps
  have hs : 0 ≤ ∑ k, a k * a k := Finset.sum_nonneg (fun k _ => mul_self_nonneg (a k))
  refine ⟨max (Real.sqrt (∑ k, a k * a k)) e, lt_max_of_lt_right he, ?_, ?_⟩
  · have h1 : Real.sqrt (∑ k, a k * a k) ≤ max (Real.sqrt (∑ k, a k * a k)) e := le_max_left _ _
    calc (∑ k, a k * a k) = Real.sqrt (∑ k, a k * a k) * Real.sqrt (∑ k, a k * a k) :=
          (Real.mul_self_sqrt hs).symm
      _ ≤ _ := mul_self_le_mul_self (Real.sqrt_nonneg _) h1
  · unfold unorm
    rw [sum_sq_real v a hv, sqrt_coe_nonneg hs, hce, coe_max_coe]

/-- With `u` the bounded norm, `t = tanh (1 · u) = tanh u`. -/
theorem tnorm_coe (v : Fin n → EReal) (u : ℝ) (hu : unorm v = (u : EReal)) :
    tnorm v = (Real.tanh u : EReal) := by
  unfold tnorm
  rw [c_one, one_mul, hu, Ideal.tanh_coe]

/-- The reference's point before projection is the real `t · a k · (1 / u)`. -/
theorem yrow_coe (v : Fin n → EReal) (a : Fin n → ℝ) (hv : ∀ k, v k = (a k : EReal)) (u : ℝ) (hu0 : u ≠ 0)
    (hu : unorm v = (u : EReal)) (k : Fin n) :
    yrow v k = ((Real.tanh u * a k * (1 / u) : ℝ) : EReal) := by
  unfold yrow
  rw [tnorm_coe v u hu, c_one, one_mul, hu, hv k, Ideal.div_coe hu0, ← EReal.coe_mul, ← EReal.coe_mul]

/-- The kernel's last step is the real `a q · (t · (1 / u))`: since `t < 1` its second factor is one. -/
theorem tailK_coe (v : Fin n → EReal) (a : Fin n → ℝ) (hv : ∀ k, v k = (a k : EReal)) (u : ℝ) (hu0 : u ≠ 0)
    (hu : unorm v = (u : EReal)) (q : Fin n) :
    tailK v q = ((a q * (Real.tanh u * (1 / u)) : ℝ) : EReal) := by
  have hlt : ¬ (1 : EReal) < (Real.tanh u : EReal) := by
    rw [← EReal.coe_one, EReal.coe_lt_coe_iff]
    exact not_lt.mpr (Real.tanh_lt_one u).le
  unfold tailK
  rw [tnorm_coe v u hu, c_one, one_mul, hu, hv q, cmp_ogt_of_not_lt hlt, ValueIdx.select_zero, mul_one,
    Ideal.div_coe hu0, ← EReal.coe_mul, ← EReal.coe_mul]

/-- The norm of the reference's point is a real below one: `Σ y² = (t / u)² · s ≤ t² < 1`. -/
theorem ynorm_coe (v : Fin n → EReal) (a : Fin n → ℝ) (hv : ∀ k, v k = (a k : EReal)) (u : ℝ) (hupos : 0 < u)
    (hsu : (∑ k, a k * a k) ≤ u * u) (hu : unorm v = (u : EReal)) :
    ∃ Y : ℝ, Y < 1 ∧ ynorm v = (Y : EReal) := by
  have hy : ∀ k, yrow v k = ((Real.tanh u * a k * (1 / u) : ℝ) : EReal) := yrow_coe v a hv u hupos.ne' hu
  have hsum := sum_sq_real (yrow v) (fun k => Real.tanh u * a k * (1 / u)) hy
  have hval : (∑ k, (Real.tanh u * a k * (1 / u)) * (Real.tanh u * a k * (1 / u)))
      = (Real.tanh u * (1 / u)) ^ 2 * ∑ k, a k * a k := by
    rw [Finset.mul_sum]
    exact Finset.sum_congr rfl (fun k _ => by ring)
  have hle : (Real.tanh u * (1 / u)) ^ 2 * (∑ k, a k * a k) ≤ (Real.tanh u) ^ 2 := by
    calc (Real.tanh u * (1 / u)) ^ 2 * (∑ k, a k * a k)
        ≤ (Real.tanh u * (1 / u)) ^ 2 * (u * u) := mul_le_mul_of_nonneg_left hsu (sq_nonneg _)
      _ = (Real.tanh u) ^ 2 := by field_simp
  have hS0 : 0 ≤ ∑ k, (Real.tanh u * a k * (1 / u)) * (Real.tanh u * a k * (1 / u)) :=
    Finset.sum_nonneg (fun k _ => mul_self_nonneg _)
  have hS1 : (∑ k, (Real.tanh u * a k * (1 / u)) * (Real.tanh u * a k * (1 / u))) < 1 := by
    rw [hval]
    exact lt_of_le_of_lt hle (Real.tanh_sq_lt_one u)
  refine ⟨Real.sqrt (∑ k, (Real.tanh u * a k * (1 / u)) * (Real.tanh u * a k * (1 / u))), ?_, ?_⟩
  · calc Real.sqrt (∑ k, (Real.tanh u * a k * (1 / u)) * (Real.tanh u * a k * (1 / u)))
        < Real.sqrt 1 := (Real.sqrt_lt_sqrt_iff hS0).mpr hS1
      _ = 1 := Real.sqrt_one
  · unfold ynorm
    rw [hsum, sqrt_coe_nonneg hS0]

/-- A real norm is neither unordered nor infinite, so it is kept as it is. -/
theorem ynorm'_coe (v : Fin n → EReal) (Y : ℝ) (hY : ynorm v = (Y : EReal)) : ynorm' v = (Y : EReal) := by
  have h1 : Ideal.cmp .une (Y : EReal) (Y : EReal) = 0#1 := by simp [Ideal.cmp]
  have h2 : Ideal.cmp .oeq (max (Y : EReal) (-(Y : EReal))) (c 0x7F800000#32) = 0#1 := by
    rw [c_top, ← EReal.coe_neg, coe_max_coe]
    simp [Ideal.cmp]
  unfold ynorm'
  rw [hY, h1, h2, BitVec.or_self, ValueIdx.select_zero]

/-- The reference's last step is the real `t · a q · (1 / u)`: the norm of `y` is below one, so `y` is not rescaled. -/
theorem tailR_coe (v : Fin n → EReal) (a : Fin n → ℝ) (hv : ∀ k, v k = (a k : EReal)) (u : ℝ) (hupos : 0 < u)
    (hsu : (∑ k, a k * a k) ≤ u * u) (hu : unorm v = (u : EReal)) (q : Fin n) :
    tailR v q = ((Real.tanh u * a q * (1 / u) : ℝ) : EReal) := by
  obtain ⟨Y, hY1, hY⟩ := ynorm_coe v a hv u hupos hsu hu
  have hlt : ¬ (1 : EReal) < (Y : EReal) := by
    rw [← EReal.coe_one, EReal.coe_lt_coe_iff]
    exact not_lt.mpr hY1.le
  unfold tailR
  rw [ynorm'_coe v Y hY, c_one, cmp_ogt_of_not_lt hlt, ValueIdx.select_zero, yrow_coe v a hv u hupos.ne' hu q]

/-- For a row of real numbers the two last steps agree. -/
theorem tail_eq (v : Fin n → EReal) (hv : ∀ q, ∃ r : ℝ, v q = (r : EReal)) (q : Fin n) : tailK v q = tailR v q := by
  choose a ha using hv
  obtain ⟨u, hupos, hsu, hu⟩ := unorm_coe v a ha
  rw [tailK_coe v a ha u hupos.ne' hu q, tailR_coe v a ha u hupos hsu hu q]
  congr 1
  ring

/-- The kernel's row function and the reference's agree: the clipped product is a row of reals. -/
theorem row_eq (W : Fin n → Fin n → EReal) (r : Fin n → EReal) (q : Fin n) : rowK W r q = rowR W r q := by
  unfold rowK rowR
  exact tail_eq _ (fun q => by unfold mxr; exact clip_real _) q

end Cert.Mobius

end
-- ==== Proof.Bridge.lean ====
/-
  The two runs meet. The kernel's result array is, entry (i, q), the row function `rowK` of row i of `x` and of the
  weights its region finds (`KernelArray`); the reference's is `rowR` of the same row and of its transposed weights
  (`RefValue`). The weights are one array (`WeightsEq`), and `rowK = rowR` (`Math`): on a row of real numbers — the
  product is clipped to [-1000, 1000] — neither program rescales, and both return `v · tanh u / u`.
-/
import proofs.«108034_j15393162789091_2_alg».proof.Proof.KernelArray
import proofs.«108034_j15393162789091_2_alg».proof.Proof.WeightsEq
import proofs.«108034_j15393162789091_2_alg».proof.Proof.RefValue
import proofs.«108034_j15393162789091_2_alg».proof.Proof.Math

noncomputable section

namespace Cert.Bridge

open Idealize.ShloMosaic Idealize.ShloMosaic.ValueIdx Idealize.ShloMosaic.TcCoe Idealize.SL.Sem Cert.Mobius

/-- THE TWO RESULT ARRAYS are one array. -/
theorem result_eq (m : (ℓ : Loc Cert.KernelIdeal.nD Cert.KernelIdeal.τ Cert.KernelIdeal.sig) → Buf (Elt Ideal) ℓ)
    (c : Dev Cert.KernelIdeal.nD) :
    Cert.ReferenceIdeal.RefValue.out (m ((c : Thread Cert.KernelIdeal.nD Cert.KernelIdeal.τ).loc Cert.KernelIdeal.main_arg0))
        (Cert.ReferenceIdeal.RefValue.wH (m ((c : Thread Cert.KernelIdeal.nD Cert.KernelIdeal.τ).loc Cert.KernelIdeal.main_arg1)))
      = Cert.KernelIdeal.Array.G (m ((c : Thread Cert.KernelIdeal.nD Cert.KernelIdeal.τ).loc Cert.KernelIdeal.main_arg0))
        (Cert.KernelIdeal.Gen.V m c Cert.KernelIdeal.main_v8) := by
  funext j
  obtain ⟨i, q, rfl⟩ : ∃ (i : Fin 65536) (q : Fin 1024), j = ix2 i q := ⟨j 0, j 1, eq_ix2 j⟩
  rw [Cert.ReferenceIdeal.RefValue.out_at]
  unfold Cert.KernelIdeal.Array.G
  rw [row_eq]
  refine congrArg₂ (fun W r => rowR W r q) ?_ rfl
  funext k q'
  exact w_eq m c k q'

end Cert.Bridge

end
-- ==== Proof.lean ====
/-
  The certificate of the Möbius matrix–vector kernel against its reference, on the extended reals.

  The kernel tiles the rows of `x` into 64 blocks of 1024 rows, keeps the stabilised, transposed weight matrix
  resident, and computes per block: the tangent vector at the origin (the row scaled by artanh of its clipped norm
  over its norm), its product with the weights clipped to [-1000, 1000], and the map back to the ball followed by the
  projection, folded into one scalar per row. The reference does the same on the whole array, except that it
  computes the point on the ball first and then measures its norm to decide whether to project.
  * The three frames: the kernel's two are generated; the reference's is its run with the result forgotten.
  * The idealized kernel is the kernel's own text read on the extended reals (no rewrite was applied).
  * The two results are equal entry by entry: each entry is a function of one row of `x` and of the weights
    (`KernelPayload`, `KernelArray` for the kernel; `RefRun`, `RefValue` for the reference), the weights are one
    array (`KernelW`, `Bridge`), and the two row functions agree because the clipped product is a row of real
    numbers, for which the point's norm is at most tanh of a positive real, hence below one: no projection happens
    on either side (`Math`).
-/
import proofs.«108034_j15393162789091_2_alg».proof.Defs
import proofs.«108034_j15393162789091_2_alg».proof.Proof.Gen.Kernel
import proofs.«108034_j15393162789091_2_alg».proof.Proof.Gen.Kernel.Skeleton
import proofs.«108034_j15393162789091_2_alg».proof.Proof.Gen.Kernel.Launch
import proofs.«108034_j15393162789091_2_alg».proof.Proof.Gen.Kernel.Points
import proofs.«108034_j15393162789091_2_alg».proof.Proof.Gen.Kernel.Frame
import proofs.«108034_j15393162789091_2_alg».proof.Proof.Gen.KernelIdeal
import proofs.«108034_j15393162789091_2_alg».proof.Proof.Gen.KernelIdeal.Skeleton
import proofs.«108034_j15393162789091_2_alg».proof.Proof.Gen.KernelIdeal.Launch
import proofs.«108034_j15393162789091_2_alg».proof.Proof.Gen.KernelIdeal.Points
import proofs.«108034_j15393162789091_2_alg».proof.Proof.Gen.KernelIdeal.Frame
import proofs.«108034_j15393162789091_2_alg».proof.Proof.Gen.ReferenceIdeal
import proofs.«108034_j15393162789091_2_alg».proof.Proof.Gen.Pre_finite_inputs
import proofs.«108034_j15393162789091_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefValue.run m ρ)

/-- The kernel's result array ends as `G` of the arguments and the reference's as `out` of arguments that agree with
    them: one array (`Bridge.result_eq`). -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  exact Cert.Bridge.result_eq m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
